-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S3072x1024 : Shape := ⟨2, ![3072, 1024]⟩
abbrev S3072 : Shape := ⟨1, ![3072]⟩
abbrev S1024x3 : Shape := ⟨2, ![1024, 3]⟩
abbrev S1024x1024 : Shape := ⟨2, ![1024, 1024]⟩
abbrev S1024 : Shape := ⟨1, ![1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x3 : S_.BroadcastsInDim S1024x3 (![] : Fin 0 → Fin S1024x3.rank)
  reducesTo_S1024x3_S_d0_1 : S1024x3.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024 .f32) (main_v13 : IVec S_ 1) (main_v16 : IVec S1024x3 1) : IVec S_ 1 :=
  let main_c_5 : IVec S_ 1 := constantI S_ 1 1#1
  let main_v17 : IVec S_ 1 := (fun x v => Host.reduce IntOp.andi x v reducesTo_S1024x3_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S16x2048x1024 .f32) (main_arg1 : FVec F S3072x1024 .f32) (main_arg2 : FVec F S3072 .f32) (main_arg3 : FVec F S1024x3 .f32) (main_arg4 : FVec F S1024x1024 .f32) (main_arg5 : FVec F S1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x3 .f32 := Host.absf main_arg3
  let main_cst_4 : FVec F S_ .f32 := constant S_ .f32 0x7F800000#32
  let main_v15 : FVec F S1024x3 .f32 := broadcastInDim S1024x3 ![] bcast_S_S1024x3 main_cst_4
  let main_v16 : IVec S1024x3 1 := cmpf .olt main_v14 main_v15
  fn_part1 (F := F) main_arg4 main_arg5 main_v13 main_v16
-- ==== Kernel.lean ====
abbrev S16x2048x1024 : Shape := ⟨3, ![16, 2048, 1024]⟩
abbrev S3072x1024 : Shape := ⟨2, ![3072, 1024]⟩
abbrev S3072 : Shape := ⟨1, ![3072]⟩
abbrev S1024x3 : Shape := ⟨2, ![1024, 3]⟩
abbrev S1024x1024 : Shape := ⟨2, ![1024, 1024]⟩
abbrev S1024 : Shape := ⟨1, ![1024]⟩
abbrev S1024x3072 : Shape := ⟨2, ![1024, 3072]⟩
abbrev S3x1024 : Shape := ⟨2, ![3, 1024]⟩
abbrev S1x256x1024 : Shape := ⟨3, ![1, 256, 1024]⟩
abbrev S8x1024 : Shape := ⟨2, ![8, 1024]⟩
abbrev S256x1024 : Shape := ⟨2, ![256, 1024]⟩
abbrev S256x3072 : Shape := ⟨2, ![256, 3072]⟩
abbrev S1x3072 : Shape := ⟨2, ![1, 3072]⟩
abbrev S1x1024 : Shape := ⟨2, ![1, 1024]⟩

abbrev nBuf : Space → Nat
  | .hbm => 12
  | .vmem => 10
  | .smem => 0
  | _ => 0

abbrev bufTy : (tb : Table) → Fin (tcTables nBuf tb) → BufTy
  | .hbm, ⟨0, _⟩ => ⟨S16x2048x1024, .f32⟩
  | .hbm, ⟨1, _⟩ => ⟨S3072x1024, .f32⟩
  | .hbm, ⟨2, _⟩ => ⟨S3072, .f32⟩
  | .hbm, ⟨3, _⟩ => ⟨S1024x3, .f32⟩
  | .hbm, ⟨4, _⟩ => ⟨S1024x1024, .f32⟩
  | .hbm, ⟨5, _⟩ => ⟨S1024, .f32⟩
  | .hbm, ⟨6, _⟩ => ⟨S1024x3072, .f32⟩
  | .hbm, ⟨7, _⟩ => ⟨S1024x3072, .bf16⟩
  | .hbm, ⟨8, _⟩ => ⟨S1024x1024, .f32⟩
  | .hbm, ⟨9, _⟩ => ⟨S1024x1024, .bf16⟩
  | .hbm, ⟨10, _⟩ => ⟨S3x1024, .f32⟩
  | .hbm, ⟨11, _⟩ => ⟨S16x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x3072, .bf16⟩
  | .local _ .vmem, ⟨3, _⟩ => ⟨S3072, .f32⟩
  | .local _ .vmem, ⟨4, _⟩ => ⟨S3x1024, .f32⟩
  | .local _ .vmem, ⟨5, _⟩ => ⟨S1024x1024, .bf16⟩
  | .local _ .vmem, ⟨6, _⟩ => ⟨S1024, .f32⟩
  | .local _ .vmem, ⟨7, _⟩ => ⟨S1x256x1024, .f32⟩
  | .local _ .vmem, ⟨8, _⟩ => ⟨S1x256x1024, .f32⟩
  | .local _ .vmem, ⟨9, _⟩ => ⟨S8x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  transposes_S3072x1024_S1024x3072_1_0 : S3072x1024.Transposes [1, 0] S1024x3072
  bitsLt_bf16_f32 : FTy.bits .bf16 < FTy.bits .f32
  transposes_S1024x1024_S1024x1024_1_0 : S1024x1024.Transposes [1, 0] S1024x1024
  transposes_S1024x3_S3x1024_1_0 : S1024x3.Transposes [1, 0] S3x1024
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S256x3072 : S1x3072.Broadcasts S256x3072
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  slices_S8x1024_o6_0_S1x1024 : S8x1024.Slices ![6, 0] S1x1024
  slices_S8x1024_o7_0_S1x1024 : S8x1024.Slices ![7, 0] S1x1024
  rotates_S256x1024_d0 : S256x1024.Rotates 0 none
  iota_S256x1024_d0_w32 : S256x1024.Iotas .tc 32 [0]
  shapeCasts_S1x1024_S1x1024 : S1x1024.ShapeCasts S1x1024
  broadcasts_S1x1024_S256x1024 : S1x1024.Broadcasts S256x1024
  inb_S3x1024_S1x1024_0_0 : ∀ a, (![0, 0] : Fin 2 → Nat) a + S1x1024.size a ≤ S3x1024.size a
  h_S1x1024 : 0 < S1x1024.numel
  inb_S3x1024_S1x1024_1_0 : ∀ a, (![1, 0] : Fin 2 → Nat) a + S1x1024.size a ≤ S3x1024.size a
  inb_S3x1024_S1x1024_2_0 : ∀ a, (![2, 0] : Fin 2 → Nat) a + S1x1024.size a ≤ S3x1024.size a
  slices_S256x1024_o248_0_S8x1024 : S256x1024.Slices ![248, 0] S8x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  shapeCasts_S256x1024_S1x256x1024 : S256x1024.ShapeCasts S1x256x1024
  dot_S256x1024_S1024x3072_S256x3072_1_0_0_1_n_n_wf : DotDims.WF S256x1024 S1024x3072 S256x3072 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S16x2048x1024.size a
  hwx0_0 : ∀ i : grid0.Coords, EltTy.bits .f32 = 32 ∨ (Rect.block (s := S16x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x1024.size a ≤ S3x1024.size a
  hwx0_3 : ∀ i : grid0.Coords, EltTy.bits .f32 = 32 ∨ (Rect.block (s := S3x1024) S3x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x1024.size a ≤ S16x2048x1024.size a
  hwx0_6 : ∀ i : grid0.Coords, EltTy.bits .f32 = 32 ∨ (Rect.block (s := S16x2048x1024) S1x256x1024.size (cc0_transform_6 i) (hinb0_6 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S3x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x2048x1024 : Shape := ⟨3, ![16, 2048, 1024]⟩
abbrev S3072x1024 : Shape := ⟨2, ![3072, 1024]⟩
abbrev S3072 : Shape := ⟨1, ![3072]⟩
abbrev S1024x3 : Shape := ⟨2, ![1024, 3]⟩
abbrev S1024x1024 : Shape := ⟨2, ![1024, 1024]⟩
abbrev S1024 : Shape := ⟨1, ![1024]⟩
abbrev S16x2048x3072 : Shape := ⟨3, ![16, 2048, 3072]⟩
abbrev S1x1x3072 : Shape := ⟨3, ![1, 1, 3072]⟩
abbrev S_ : Shape := ⟨0, ![]⟩
abbrev S16x2050x1024 : Shape := ⟨3, ![16, 2050, 1024]⟩
abbrev S1024x1 : Shape := ⟨2, ![1024, 1]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S3072x1024, .f32⟩
  | .hbm, ⟨2, _⟩ => ⟨S3072, .f32⟩
  | .hbm, ⟨3, _⟩ => ⟨S1024x3, .f32⟩
  | .hbm, ⟨4, _⟩ => ⟨S1024x1024, .f32⟩
  | .hbm, ⟨5, _⟩ => ⟨S1024, .f32⟩
  | .hbm, ⟨6, _⟩ => ⟨S16x2048x3072, .f32⟩
  | .hbm, ⟨7, _⟩ => ⟨S1x1x3072, .f32⟩
  | .hbm, ⟨8, _⟩ => ⟨S16x2048x3072, .f32⟩
  | .hbm, ⟨9, _⟩ => ⟨S16x2048x3072, .f32⟩
  | .hbm, ⟨10, _⟩ => ⟨S16x2048x1024, .f32⟩
  | .hbm, ⟨11, _⟩ => ⟨S16x2048x1024, .f32⟩
  | .hbm, ⟨12, _⟩ => ⟨S16x2048x1024, .f32⟩
  | .hbm, ⟨13, _⟩ => ⟨S16x2048x1024, .f32⟩
  | .hbm, ⟨14, _⟩ => ⟨S_, .i32⟩
  | .hbm, ⟨15, _⟩ => ⟨S_, .f32⟩
  | .hbm, ⟨16, _⟩ => ⟨S16x2050x1024, .f32⟩
  | .hbm, ⟨17, _⟩ => ⟨S1024x1, .f32⟩
  | .hbm, ⟨18, _⟩ => ⟨S1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S1024x1, .f32⟩
  | .hbm, ⟨24, _⟩ => ⟨S1024, .f32⟩
  | .hbm, ⟨25, _⟩ => ⟨S16x2048x1024, .f32⟩
  | .hbm, ⟨26, _⟩ => ⟨S1x1x1024, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S1024x1, .f32⟩
  | .hbm, ⟨31, _⟩ => ⟨S1024, .f32⟩
  | .hbm, ⟨32, _⟩ => ⟨S16x2048x1024, .f32⟩
  | .hbm, ⟨33, _⟩ => ⟨S1x1x1024, .f32⟩
  | .hbm, ⟨34, _⟩ => ⟨S16x2048x1024, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S16x2048x1024, .f32⟩
  | .hbm, ⟨39, _⟩ => ⟨S1x1x1024, .f32⟩
  | .hbm, ⟨40, _⟩ => ⟨S16x2048x1024, .f32⟩
  | .hbm, ⟨41, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S16x2048x3072_0_1_2 : S1x1x3072.BroadcastsInDim S16x2048x3072 (![0, 1, 2] : Fin 3 → Fin S16x2048x3072.rank)
  slices_S16x2048x3072_S16x2048x1024_0_0_0 : S16x2048x3072.Slices ![0, 0, 0] S16x2048x1024
  slices_S16x2048x3072_S16x2048x1024_0_0_1024 : S16x2048x3072.Slices ![0, 0, 1024] S16x2048x1024
  slices_S16x2048x3072_S16x2048x1024_0_0_2048 : S16x2048x3072.Slices ![0, 0, 2048] S16x2048x1024
  pads_S16x2048x1024_S16x2050x1024_000_200_000 : S16x2048x1024.Pads (![0, 2, 0] : Fin 3 → Nat) ![0, 0, 0] ![0, 0, 0] S16x2050x1024
  h_S_ : 0 < S_.numel
  slices_S1024x3_S1024x1_0_0 : S1024x3.Slices ![0, 0] S1024x1
  shapeCasts_S1024x1_S1024 : S1024x1.ShapeCasts S1024
  slices_S16x2050x1024_S16x2048x1024_0_0_0 : S16x2050x1024.Slices ![0, 0, 0] S16x2048x1024
  bcast_S1024_S1x1x1024_2 : S1024.BroadcastsInDim S1x1x1024 (![2] : Fin 1 → Fin S1x1x1024.rank)
  bcast_S1x1x1024_S16x2048x1024_0_1_2 : S1x1x1024.BroadcastsInDim S16x2048x1024 (![0, 1, 2] : Fin 3 → Fin S16x2048x1024.rank)
  slices_S1024x3_S1024x1_0_1 : S1024x3.Slices ![0, 1] S1024x1
  slices_S16x2050x1024_S16x2048x1024_0_1_0 : S16x2050x1024.Slices ![0, 1, 0] S16x2048x1024
  slices_S1024x3_S1024x1_0_2 : S1024x3.Slices ![0, 2] S1024x1
  slices_S16x2050x1024_S16x2048x1024_0_2_0 : S16x2050x1024.Slices ![0, 2, 0] S16x2048x1024
  dot_S16x2048x1024_S3072x1024_S16x2048x3072_2_1_01_0_n_n_wf : DotDims.WF S16x2048x1024 S3072x1024 S16x2048x3072 [2] [1] [0, 1] [0] [] []
  dot_S16x2048x1024_S1024x1024_S16x2048x1024_2_1_01_0_n_n_wf : DotDims.WF S16x2048x1024 S1024x1024 S16x2048x1024 [2] [1] [0, 1] [0] [] []

variable [Facts₀]

def dot_S16x2048x1024_S3072x1024_S16x2048x3072_2_1_01_0_n_n : DotDims S16x2048x1024 S3072x1024 S16x2048x3072 where
  lhsContracting := [2]
  rhsContracting := [1]
  lhsNonContracting := [0, 1]
  rhsNonContracting := [0]
  lhsBatch := []
  rhsBatch := []
  wf := dot_S16x2048x1024_S3072x1024_S16x2048x3072_2_1_01_0_n_n_wf
def dot_S16x2048x1024_S1024x1024_S16x2048x1024_2_1_01_0_n_n : DotDims S16x2048x1024 S1024x1024 S16x2048x1024 where
  lhsContracting := [2]
  rhsContracting := [1]
  lhsNonContracting := [0, 1]
  rhsNonContracting := [0]
  lhsBatch := []
  rhsBatch := []
  wf := dot_S16x2048x1024_S1024x1024_S16x2048x1024_2_1_01_0_n_n_wf

class Facts : Prop extends Facts₀ where

variable [Facts]
-- ==== Proof.Blocks.lean ====
/-
  Where the kernel's blocks sit in the argument arrays.

  The grid has 16 × 8 points; point t works on batch t / 8 and on rows 256·(t % 8) … 256·(t % 8) + 255 of
  the input and of the result. The other five operands are staged whole: the input projection's weights
  transposed (entry (k, e) is Win e k), its bias, the taps transposed (entry (j, d) is wconv d j), the output
  projection's weights transposed (entry (d, e) is Wout e d) and its bias. Changing the float format is the
  identity on the extended reals, so the transposed copies hold the arguments' own entries.
-/
import proofs.«174520_j68470368633596_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The block index of every window at every grid point: the input and the result move with the point
    (batch t / 8, row block t % 8), the other operands never move. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 3) = t.val / 8 ∧ win0_6.index t (1 : Fin 3) = t.val % 8 ∧ win0_6.index t (2 : Fin 3) = 0 :=
  (by decide +kernel : ∀ t : Fin grid0.N, _)

/-! ## The three transposed operands -/

theorem V_v1 (c : Dev nD) : (V m c main_v1 : S1024x3072.Idx → EReal)
    = truncf (F := Ideal) .bf16 (transpose S1024x3072 [1, 0] (m ((c : Thread nD τ).loc main_arg1)) transposes_S3072x1024_S1024x3072_1_0) bitsLt_bf16_f32 := by
  dsimp only [Gen.V, Gen.hostOps0]; after_results

theorem V_v3 (c : Dev nD) : (V m c main_v3 : S1024x1024.Idx → EReal)
    = truncf (F := Ideal) .bf16 (transpose S1024x1024 [1, 0] (m ((c : Thread nD τ).loc main_arg4)) transposes_S1024x1024_S1024x1024_1_0) bitsLt_bf16_f32 := by
  dsimp only [Gen.V, Gen.hostOps0]; after_results

theorem V_v4 (c : Dev nD) : (V m c main_v4 : S3x1024.Idx → EReal)
    = transpose S3x1024 [1, 0] (m ((c : Thread nD τ).loc main_arg3)) transposes_S1024x3_S3x1024_1_0 := by
  dsimp only [Gen.V, Gen.hostOps0]; after_results

/-- The staged input-projection weights at (k, e) are `Win e k`. -/
theorem V_v1_apply (c : Dev nD) (k : Fin 1024) (e : Fin 3072) :
    (V m c main_v1 : S1024x3072.Idx → EReal) (ix2 k e) = m ((c : Thread nD τ).loc main_arg1) (ix2 e k) := by
  rw [V_v1]
  exact transpose_apply [1, 0] _ transposes_S3072x1024_S1024x3072_1_0 (ix2 k e) (ix2 e k) (fun b => by
    match b with
    | ⟨0, _⟩ => rfl
    | ⟨1, _⟩ => rfl)

/-- The staged output-projection weights at (d, e) are `Wout e d`. -/
theorem V_v3_apply (c : Dev nD) (d e : Fin 1024) :
    (V m c main_v3 : S1024x1024.Idx → EReal) (ix2 d e) = m ((c : Thread nD τ).loc main_arg4) (ix2 e d) := by
  rw [V_v3]
  exact transpose_apply [1, 0] _ transposes_S1024x1024_S1024x1024_1_0 (ix2 d e) (ix2 e d) (fun b => by
    match b with
    | ⟨0, _⟩ => rfl
    | ⟨1, _⟩ => rfl)

/-- The staged taps at (j, d) are `wconv d j`. -/
theorem V_v4_apply (c : Dev nD) (j : Fin 3) (d : Fin 1024) :
    (V m c main_v4 : S3x1024.Idx → EReal) (ix2 j d) = m ((c : Thread nD τ).loc main_arg3) (ix2 d j) := by
  rw [V_v4]
  exact transpose_apply [1, 0] _ transposes_S1024x3_S3x1024_1_0 (ix2 j d) (ix2 d j) (fun b => by
    match b with
    | ⟨0, _⟩ => rfl
    | ⟨1, _⟩ => rfl)

/-! ## The blocks the body loads -/

/-- Point `t`'s input block at (0, r, k) is `x (t / 8) (256·(t % 8) + r) k`. -/
theorem iblk0_apply (c : Dev nD) (t : Fin cfg0.N) (r : Fin 256) (k : Fin 1024) :
    (iblk m c 0 t : Vec Ideal S1x256x1024 .f32) (ix3 (0 : Fin 1) r k)
      = m ((c : Thread nD τ).loc main_arg0) (ix3 (⟨t.val / 8, by have := lt_of_lt_of_eq t.isLt (show cfg0.N = 128 from N_0); omega⟩ : Fin 16)
          (⟨256 * (t.val % 8) + r.val, by have := r.isLt; omega⟩ : Fin 2048) k) := by
  obtain ⟨e0, e1, e2, -⟩ := idx_facts t
  rw [← V_main_arg0 m c]
  show V m c main_arg0 (((cfg0.win 0).blk t).view.emb (ix3 (0 : Fin 1) r k)) = _
  refine congrArg (V m c main_arg0) (funext fun a => Fin.ext ?_)
  match a with
  | ⟨0, _⟩ => show win0_0.index t (0 : Fin 3) * 1 + 1 * 0 = t.val / 8; omega
  | ⟨1, _⟩ => show win0_0.index t (1 : Fin 3) * 256 + 1 * r.val = 256 * (t.val % 8) + r.val; omega
  | ⟨2, _⟩ => show win0_0.index t (2 : Fin 3) * 1024 + 1 * k.val = k.val; omega

/-- The weights' block is the whole transposed array: at (k, e) it is `Win e k`. -/
theorem iblk1_apply (c : Dev nD) (t : Fin cfg0.N) (k : Fin 1024) (e : Fin 3072) :
    (iblk m c 1 t : Vec Ideal S1024x3072 .bf16) (ix2 k e) = m ((c : Thread nD τ).loc main_arg1) (ix2 e k) := by
  obtain ⟨-, -, -, e0, e1, -⟩ := idx_facts t
  rw [← V_v1_apply m c k e]
  show V m c main_v1 (((cfg0.win 1).blk t).view.emb (ix2 k e)) = _
  refine congrArg (V m c main_v1) (funext fun a => Fin.ext ?_)
  match a with
  | ⟨0, _⟩ => show win0_1.index t (0 : Fin 2) * 1024 + 1 * k.val = k.val; omega
  | ⟨1, _⟩ => show win0_1.index t (1 : Fin 2) * 3072 + 1 * e.val = e.val; omega

/-- The bias block is the whole bias. -/
theorem iblk2_apply (c : Dev nD) (t : Fin cfg0.N) (e : Fin 3072) :
    (iblk m c 2 t : Vec Ideal S3072 .f32) (ix1 e) = m ((c : Thread nD τ).loc main_arg2) (ix1 e) := by
  obtain ⟨-, -, -, -, -, e0, -⟩ := idx_facts t
  rw [← V_main_arg2 m c]
  show V m c main_arg2 (((cfg0.win 2).blk t).view.emb (ix1 e)) = _
  refine congrArg (V m c main_arg2) (funext fun a => Fin.ext ?_)
  match a with
  | ⟨0, _⟩ => show win0_2.index t (0 : Fin 1) * 3072 + 1 * e.val = e.val; omega

/-- The taps' block is the whole transposed array: at (j, d) it is `wconv d j`. -/
theorem iblk3_apply (c : Dev nD) (t : Fin cfg0.N) (j : Fin 3) (d : Fin 1024) :
    (iblk m c 3 t : Vec Ideal S3x1024 .f32) (ix2 j d) = m ((c : Thread nD τ).loc main_arg3) (ix2 d j) := by
  obtain ⟨-, -, -, -, -, -, e0, e1, -⟩ := idx_facts t
  rw [← V_v4_apply m c j d]
  show V m c main_v4 (((cfg0.win 3).blk t).view.emb (ix2 j d)) = _
  refine congrArg (V m c main_v4) (funext fun a => Fin.ext ?_)
  match a with
  | ⟨0, _⟩ => show win0_3.index t (0 : Fin 2) * 3 + 1 * j.val = j.val; omega
  | ⟨1, _⟩ => show win0_3.index t (1 : Fin 2) * 1024 + 1 * d.val = d.val; omega

/-- The output weights' block is the whole transposed array: at (d, e) it is `Wout e d`. -/
theorem iblk4_apply (c : Dev nD) (t : Fin cfg0.N) (d e : Fin 1024) :
    (iblk m c 4 t : Vec Ideal S1024x1024 .bf16) (ix2 d e) = m ((c : Thread nD τ).loc main_arg4) (ix2 e d) := by
  obtain ⟨-, -, -, -, -, -, -, -, e0, e1, -⟩ := idx_facts t
  rw [← V_v3_apply m c d e]
  show V m c main_v3 (((cfg0.win 4).blk t).view.emb (ix2 d e)) = _
  refine congrArg (V m c main_v3) (funext fun a => Fin.ext ?_)
  match a with
  | ⟨0, _⟩ => show win0_4.index t (0 : Fin 2) * 1024 + 1 * d.val = d.val; omega
  | ⟨1, _⟩ => show win0_4.index t (1 : Fin 2) * 1024 + 1 * e.val = e.val; omega

/-- The output bias block is the whole bias. -/
theorem iblk5_apply (c : Dev nD) (t : Fin cfg0.N) (e : Fin 1024) :
    (iblk m c 5 t : Vec Ideal S1024 .f32) (ix1 e) = m ((c : Thread nD τ).loc main_arg5) (ix1 e) := by
  obtain ⟨-, -, -, -, -, -, -, -, -, -, e0, -⟩ := idx_facts t
  rw [← V_main_arg5 m c]
  show V m c main_arg5 (((cfg0.win 5).blk t).view.emb (ix1 e)) = _
  refine congrArg (V m c main_arg5) (funext fun a => Fin.ext ?_)
  match a with
  | ⟨0, _⟩ => show win0_5.index t (0 : Fin 1) * 1024 + 1 * e.val = e.val; omega

end Cert.KernelIdeal.Blocks

end
-- ==== Proof.ConvSpec.lean ====
/-
  The gated causal depthwise convolution as ONE function of the six argument arrays, index by index,
  over the extended reals.

  With x : [16, 2048, 1024], Win : [3072, 1024], bin : [3072], wconv : [1024, 3], Wout : [1024, 1024],
  bout : [1024]:
    proj b t e  = (∑ k, x b t k · Win e k) + bin e                      (e < 3072)
    gate b t d  = proj b t d · proj b t (2048 + d)                      (d < 1024)
    pass b t d  = proj b t (1024 + d)
    back s b t d = gate b (t − s) d when s ≤ t, and 0 otherwise         (the causal shift by s rows)
    conv b t d  = (wconv d 0 · back 2 b t d + wconv d 1 · back 1 b t d) + wconv d 2 · gate b t d
    out b t e   = (∑ d, (pass b t d · conv b t d) · Wout e d) + bout e  (e < 1024)
  Every sum is a finite sum of extended reals, so its order does not matter; nothing here distributes a
  product over a sum, so no finiteness is needed anywhere.
-/
import Idealize.ShloMosaic.PureOps.Ideal
import Idealize.ShloMosaic.Lib.ValueIdx

noncomputable section

namespace Cert.ConvSpec

open Idealize.ShloMosaic Idealize.ShloMosaic.ValueIdx

/-- The input projection at batch `b`, row `t`, channel `e`: a dot product over the 1024 features, plus the bias. -/
def proj (x : (⟨3, ![16, 2048, 1024]⟩ : Shape).Idx → EReal) (Win : (⟨2, ![3072, 1024]⟩ : Shape).Idx → EReal)
    (bin : (⟨1, ![3072]⟩ : Shape).Idx → EReal) (b : Fin 16) (t : Fin 2048) (e : Fin 3072) : EReal :=
  (∑ k : Fin 1024, x (ix3 b t k) * Win (ix2 e k)) + bin (ix1 e)

/-- The gated product: the first third of the projection times the last third. -/
def gate (x : (⟨3, ![16, 2048, 1024]⟩ : Shape).Idx → EReal) (Win : (⟨2, ![3072, 1024]⟩ : Shape).Idx → EReal)
    (bin : (⟨1, ![3072]⟩ : Shape).Idx → EReal) (b : Fin 16) (t : Fin 2048) (d : Fin 1024) : EReal :=
  proj x Win bin b t ⟨d.val, by have := d.isLt; omega⟩ * proj x Win bin b t ⟨2048 + d.val, by have := d.isLt; omega⟩

/-- The middle third of the projection, which multiplies the convolution's result. -/
def pass (x : (⟨3, ![16, 2048, 1024]⟩ : Shape).Idx → EReal) (Win : (⟨2, ![3072, 1024]⟩ : Shape).Idx → EReal)
    (bin : (⟨1, ![3072]⟩ : Shape).Idx → EReal) (b : Fin 16) (t : Fin 2048) (d : Fin 1024) : EReal :=
  proj x Win bin b t ⟨1024 + d.val, by have := d.isLt; omega⟩

/-- The gated product `s` rows earlier in the same batch, and zero in the first `s` rows (the causal left padding). -/
def back (x : (⟨3, ![16, 2048, 1024]⟩ : Shape).Idx → EReal) (Win : (⟨2, ![3072, 1024]⟩ : Shape).Idx → EReal)
    (bin : (⟨1, ![3072]⟩ : Shape).Idx → EReal) (s : Nat) (b : Fin 16) (t : Fin 2048) (d : Fin 1024) : EReal :=
  if h : s ≤ t.val then gate x Win bin b ⟨t.val - s, by have := t.isLt; omega⟩ d else 0

/-- The three-tap causal depthwise convolution of the gated product, oldest tap first. -/
def conv (x : (⟨3, ![16, 2048, 1024]⟩ : Shape).Idx → EReal) (Win : (⟨2, ![3072, 1024]⟩ : Shape).Idx → EReal)
    (bin : (⟨1, ![3072]⟩ : Shape).Idx → EReal) (wconv : (⟨2, ![1024, 3]⟩ : Shape).Idx → EReal)
    (b : Fin 16) (t : Fin 2048) (d : Fin 1024) : EReal :=
  (wconv (ix2 d (0 : Fin 3)) * back x Win bin 2 b t d + wconv (ix2 d (1 : Fin 3)) * back x Win bin 1 b t d)
    + wconv (ix2 d (2 : Fin 3)) * gate x Win bin b t d

/-- The output projection of the gated convolution, plus its bias. -/
def out (x : (⟨3, ![16, 2048, 1024]⟩ : Shape).Idx → EReal) (Win : (⟨2, ![3072, 1024]⟩ : Shape).Idx → EReal)
    (bin : (⟨1, ![3072]⟩ : Shape).Idx → EReal) (wconv : (⟨2, ![1024, 3]⟩ : Shape).Idx → EReal)
    (Wout : (⟨2, ![1024, 1024]⟩ : Shape).Idx → EReal) (bout : (⟨1, ![1024]⟩ : Shape).Idx → EReal)
    (b : Fin 16) (t : Fin 2048) (e : Fin 1024) : EReal :=
  (∑ d : Fin 1024, (pass x Win bin b t d * conv x Win bin wconv b t d) * Wout (ix2 e d)) + bout (ix1 e)

/-- The whole result array. -/
def G (x : (⟨3, ![16, 2048, 1024]⟩ : Shape).Idx → EReal) (Win : (⟨2, ![3072, 1024]⟩ : Shape).Idx → EReal)
    (bin : (⟨1, ![3072]⟩ : Shape).Idx → EReal) (wconv : (⟨2, ![1024, 3]⟩ : Shape).Idx → EReal)
    (Wout : (⟨2, ![1024, 1024]⟩ : Shape).Idx → EReal) (bout : (⟨1, ![1024]⟩ : Shape).Idx → EReal) :
    (⟨3, ![16, 2048, 1024]⟩ : Shape).Idx → EReal :=
  fun i => out x Win bin wconv Wout bout ⟨(i 0).val, (i 0).isLt⟩ ⟨(i 1).val, (i 1).isLt⟩ ⟨(i 2).val, (i 2).isLt⟩

theorem G_apply (x : (⟨3, ![16, 2048, 1024]⟩ : Shape).Idx → EReal) (Win : (⟨2, ![3072, 1024]⟩ : Shape).Idx → EReal)
    (bin : (⟨1, ![3072]⟩ : Shape).Idx → EReal) (wconv : (⟨2, ![1024, 3]⟩ : Shape).Idx → EReal)
    (Wout : (⟨2, ![1024, 1024]⟩ : Shape).Idx → EReal) (bout : (⟨1, ![1024]⟩ : Shape).Idx → EReal)
    (b : Fin 16) (t : Fin 2048) (e : Fin 1024) :
    G x Win bin wconv Wout bout (ix3 b t e) = out x Win bin wconv Wout bout b t e := rfl

end Cert.ConvSpec

end
-- ==== Proof.PayloadIdx.lean ====
/- The kernel body's pure payloads read at an index, at the ideal instance: each payload of the
   generated skeleton, applied at an index written by coordinates, as an expression in the extended
   reals over the loaded values at coordinates. -/
import proofs.«174520_j68470368633596_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

open scoped BigOperators

/-! ## The two matrix products read at an index -/

/-- The non-contracted coordinate of the left operand's index is the output's row. -/
theorem lhs_dot1_0 (i : S256x3072.Idx) (q : dot_S256x1024_S1024x3072_S256x3072_1_0_0_1_n_n.contr.Idx) :
    (dot_S256x1024_S1024x3072_S256x3072_1_0_0_1_n_n.lhsIdx i q 0).val = (i 0).val := by
  unfold DotDims.lhsIdx
  rw [dif_neg (show ¬(0 : Fin S256x1024.rank) ∈ dot_S256x1024_S1024x3072_S256x3072_1_0_0_1_n_n.lhsBatch by decide), dif_pos (show (0 : Fin S256x1024.rank) ∈ dot_S256x1024_S1024x3072_S256x3072_1_0_0_1_n_n.lhsNonContracting by decide)]
  rfl
/-- The contracted coordinate of the left operand's index is the contraction position's coordinate. -/
theorem lhs_dot1_1 (i : S256x3072.Idx) (q : dot_S256x1024_S1024x3072_S256x3072_1_0_0_1_n_n.contr.Idx) :
    (dot_S256x1024_S1024x3072_S256x3072_1_0_0_1_n_n.lhsIdx i q 1).val = (q ⟨0, by decide⟩).val :=
  dot_S256x1024_S1024x3072_S256x3072_1_0_0_1_n_n.lhsIdx_val_of_single rfl i q
/-- The contracted coordinate of the right operand's index is the contraction position's coordinate. -/
theorem rhs_dot1_0 (i : S256x3072.Idx) (q : dot_S256x1024_S1024x3072_S256x3072_1_0_0_1_n_n.contr.Idx) :
    (dot_S256x1024_S1024x3072_S256x3072_1_0_0_1_n_n.rhsIdx i q 0).val = (q ⟨0, by decide⟩).val :=
  dot_S256x1024_S1024x3072_S256x3072_1_0_0_1_n_n.rhsIdx_val_of_single rfl i q
/-- The non-contracted coordinate of the right operand's index is the output's column. -/
theorem rhs_dot1_1 (i : S256x3072.Idx) (q : dot_S256x1024_S1024x3072_S256x3072_1_0_0_1_n_n.contr.Idx) :
    (dot_S256x1024_S1024x3072_S256x3072_1_0_0_1_n_n.rhsIdx i q 1).val = (i 1).val := by
  unfold DotDims.rhsIdx
  rw [dif_neg (show ¬(1 : Fin S1024x3072.rank) ∈ dot_S256x1024_S1024x3072_S256x3072_1_0_0_1_n_n.rhsBatch by decide), dif_pos (show (1 : Fin S1024x3072.rank) ∈ dot_S256x1024_S1024x3072_S256x3072_1_0_0_1_n_n.rhsNonContracting by decide)]
  rfl

/-- The product into the zero accumulator, read at `(r, e)`: the sum over the contracted coordinate of the
    left operand at `(r, k)` times the right operand at `(k, e)`. -/
theorem matmul_dot1_apply (A : FVec Ideal S256x1024 .bf16) (B : FVec Ideal S1024x3072 .bf16) (r : Fin 256) (e : Fin 3072) :
    matmul dot_S256x1024_S1024x3072_S256x3072_1_0_0_1_n_n none A B (constant S256x3072 .f32 0x00000000#32) (ix2 r e)
      = ∑ k : Fin 1024, A (ix2 r k) * B (ix2 k e) := by
  refine (Ideal.matmul_constant_zero_apply dot_S256x1024_S1024x3072_S256x3072_1_0_0_1_n_n none A B (ix2 r e)).trans ?_
  rw [← Equiv.sum_comp (contrEquiv1 dot_S256x1024_S1024x3072_S256x3072_1_0_0_1_n_n 1024 rfl rfl).symm]
  refine Finset.sum_congr rfl fun k _ => ?_
  have hk := contrEquiv1_symm_val dot_S256x1024_S1024x3072_S256x3072_1_0_0_1_n_n 1024 rfl rfl k
  have el : dot_S256x1024_S1024x3072_S256x3072_1_0_0_1_n_n.lhsIdx (ix2 r e) ((contrEquiv1 dot_S256x1024_S1024x3072_S256x3072_1_0_0_1_n_n 1024 rfl rfl).symm k) = ix2 r k := funext fun a => Fin.ext (by
    match a with
    | ⟨0, _⟩ => exact lhs_dot1_0 _ _
    | ⟨1, _⟩ => exact (lhs_dot1_1 _ _).trans hk)
  have er : dot_S256x1024_S1024x3072_S256x3072_1_0_0_1_n_n.rhsIdx (ix2 r e) ((contrEquiv1 dot_S256x1024_S1024x3072_S256x3072_1_0_0_1_n_n 1024 rfl rfl).symm k) = ix2 k e := funext fun a => Fin.ext (by
    match a with
    | ⟨0, _⟩ => exact (rhs_dot1_0 _ _).trans hk
    | ⟨1, _⟩ => exact rhs_dot1_1 _ _)
  rw [el, er]

/-- The non-contracted coordinate of the left operand's index is the output's row. -/
theorem lhs_dot2_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
/-- The contracted coordinate of the left operand's index is the contraction position's coordinate. -/
theorem lhs_dot2_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
/-- The contracted coordinate of the right operand's index is the contraction position's coordinate. -/
theorem rhs_dot2_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
/-- The non-contracted coordinate of the right operand's index is the output's column. -/
theorem rhs_dot2_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The product into the zero accumulator, read at `(r, e)`: the sum over the contracted coordinate of the
    left operand at `(r, k)` times the right operand at `(k, e)`. -/
theorem matmul_dot2_apply (A : FVec Ideal S256x1024 .bf16) (B : FVec Ideal S1024x1024 .bf16) (r : Fin 256) (e : Fin 1024) :
    matmul dot_S256x1024_S1024x1024_S256x1024_1_0_0_1_n_n none A B (constant S256x1024 .f32 0x00000000#32) (ix2 r e)
      = ∑ k : Fin 1024, A (ix2 r k) * B (ix2 k e) := by
  refine (Ideal.matmul_constant_zero_apply dot_S256x1024_S1024x1024_S256x1024_1_0_0_1_n_n none A B (ix2 r e)).trans ?_
  rw [← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 r e) ((contrEquiv1 dot_S256x1024_S1024x1024_S256x1024_1_0_0_1_n_n 1024 rfl rfl).symm k) = ix2 r k := funext fun a => Fin.ext (by
    match a with
    | ⟨0, _⟩ => exact lhs_dot2_0 _ _
    | ⟨1, _⟩ => exact (lhs_dot2_1 _ _).trans hk)
  have er : dot_S256x1024_S1024x1024_S256x1024_1_0_0_1_n_n.rhsIdx (ix2 r e) ((contrEquiv1 dot_S256x1024_S1024x1024_S256x1024_1_0_0_1_n_n 1024 rfl rfl).symm k) = ix2 k e := funext fun a => Fin.ext (by
    match a with
    | ⟨0, _⟩ => exact (rhs_dot2_0 _ _).trans hk
    | ⟨1, _⟩ => exact rhs_dot2_1 _ _)
  rw [el, er]

/-! ## The payloads read at an index -/

/-- A cast to the same shape reads its operand at the same index. -/
theorem pay10_apply (v36 : Vec Ideal S1x1024 .f32) (d : Fin 1024) :
    k0_pay10 v36 (ix2 (0 : Fin 1) d) = v36 (ix2 (0 : Fin 1) d) := by
  unfold k0_pay10
  exact congrFun (shapeCast_self v36 shapeCasts_S1x1024_S1x1024) _

/-- The splat of the zero word, cast to its own shape, reads zero at every index. -/
theorem pay3_apply (q : Fin 8) (d : Fin 1024) : k0_pay3 (F := Ideal) (ix2 q d) = 0 := by
  unfold k0_pay3
  refine (congrFun (shapeCast_self _ shapeCasts_S8x1024_S8x1024) _).trans ?_
  exact Ideal.ofBits_zero_f32

/-- The slice of rows 248 to 255, cast to its own shape, reads at `(q, d)` the operand at `(248 + q, d)`. -/
theorem pay1_apply (v16 : FVec Ideal S256x1024 .f32) (q : Fin 8) (d : Fin 1024) :
    k0_pay1 v16 (ix2 q d) = v16 (ix2 (⟨248 + q.val, by have := q.isLt; omega⟩ : Fin 256) d) := by
  unfold k0_pay1
  refine (congrFun (shapeCast_self _ shapeCasts_S8x1024_S8x1024) _).trans ?_
  exact slice2_axis0_apply 248 v16 slices_S256x1024_o248_0_S8x1024 q d _ rfl

/-- The first product plus its broadcast bias at `(r, e)`: the sum over `k` of the block at `(0, r, k)` times the
    weights at `(k, e)`, plus the bias at `e`. -/
theorem pay4_apply (v3 : Vec Ideal S1x256x1024 .f32) (v6 : Vec Ideal S1024x3072 .bf16) (v9 : Vec Ideal S3072 .f32) (r : Fin 256) (e : Fin 3072) :
    k0_pay4 v3 v6 v9 (ix2 r e) = (∑ k : Fin 1024, v3 (ix3 (0 : Fin 1) r k) * v6 (ix2 k e)) + v9 (ix1 e) := by
  unfold k0_pay4
  refine (addf_apply _ _ _).trans ?_
  refine congrArg₂ (· + ·) ?_ ?_
  · refine (matmul_dot1_apply _ _ r e).trans ?_
    refine Finset.sum_congr rfl fun k _ => ?_
    refine congrArg₂ (· * ·) ?_ ?_
    · refine (truncf_apply (φ := .f32) (ψ := .bf16) (shapeCast S256x1024 v3 shapeCasts_S1x256x1024_S256x1024) bitsLt_bf16_f32 (ix2 r k)).trans ?_
      exact shapeCast_1ab_ab_apply v3 shapeCasts_S1x256x1024_S256x1024 r k
    · exact congrFun (shapeCast_self v6 shapeCasts_S1024x3072_S1024x3072) _
  · refine (broadcastTo_1b_ab_apply _ broadcasts_S1x3072_S256x3072 r e).trans ?_
    exact shapeCast_a_1a_apply v9 shapeCasts_S3072_S1x3072 0 e

/-- The slice of columns 1024 to 2047 of the first product: at `(r, d)` it reads column `1024 + d`. -/
theorem pay5_apply (v3 : Vec Ideal S1x256x1024 .f32) (v6 : Vec Ideal S1024x3072 .bf16) (v9 : Vec Ideal S3072 .f32) (r : Fin 256) (d : Fin 1024) :
    k0_pay5 v3 v6 v9 (ix2 r d) = k0_pay4 v3 v6 v9 (ix2 r (⟨1024 + d.val, by have := d.isLt; omega⟩ : Fin 3072)) := by
  unfold k0_pay5
  generalize k0_pay4 v3 v6 v9 = y
  exact slice2_axis1_apply 1024 y slices_S256x3072_o0_1024_S256x1024 r d _ rfl

/-- The product of the slices of columns 0 to 1023 and 2048 to 3071 of the first product: at `(r, d)` it is
    column `d` times column `2048 + d`. -/
theorem pay6_apply (v3 : Vec Ideal S1x256x1024 .f32) (v6 : Vec Ideal S1024x3072 .bf16) (v9 : Vec Ideal S3072 .f32) (r : Fin 256) (d : Fin 1024) :
    k0_pay6 v3 v6 v9 (ix2 r d) = k0_pay4 v3 v6 v9 (ix2 r (⟨d.val, by have := d.isLt; omega⟩ : Fin 3072)) * k0_pay4 v3 v6 v9 (ix2 r (⟨2048 + d.val, by have := d.isLt; omega⟩ : Fin 3072)) := by
  unfold k0_pay6
  generalize k0_pay4 v3 v6 v9 = y
  refine (mulf_apply _ _ _).trans ?_
  exact congrArg₂ (· * ·)
    (slice2_axis1_apply 0 y slices_S256x3072_o0_0_S256x1024 r d _ (Nat.zero_add _).symm)
    (slice2_axis1_apply 2048 y slices_S256x3072_o0_2048_S256x1024 r d _ rfl)

/-- The second product plus its broadcast bias, with a leading unit axis added, at `(0, r, e)`: the sum over `d` of
    the gate at `(r, d)` times the three-term combination of the rows at `(r, d)` weighted by the three broadcast rows
    at `d`, times the weights at `(d, e)`, plus the bias at `e`. -/
theorem pay2_apply (v14 v16 v29 v35 : FVec Ideal S256x1024 .f32) (v37 : FVec Ideal S1x1024 .f32) (v38 v40 : Vec Ideal S1x1024 .f32) (v56 : Vec Ideal S1024x1024 .bf16) (v59 : Vec Ideal S1024 .f32) (r : Fin 256) (e : Fin 1024) :
    k0_pay2 v14 v16 v29 v35 v37 v38 v40 v56 v59 (ix3 (0 : Fin 1) r e)
      = (∑ d : Fin 1024, (v14 (ix2 r d) * ((v37 (ix2 (0 : Fin 1) d) * v35 (ix2 r d) + v38 (ix2 (0 : Fin 1) d) * v29 (ix2 r d)) + v40 (ix2 (0 : Fin 1) d) * v16 (ix2 r d))) * v56 (ix2 d e)) + v59 (ix1 e) := by
  unfold k0_pay2
  refine (shapeCast_ab_1ab_apply _ shapeCasts_S256x1024_S1x256x1024 0 r e).trans ?_
  refine (addf_apply _ _ _).trans ?_
  refine congrArg₂ (· + ·) ?_ ?_
  · refine (matmul_dot2_apply _ _ r e).trans ?_
    refine Finset.sum_congr rfl fun d _ => ?_
    refine congrArg₂ (· * ·) ?_ ?_
    · have h37 : broadcastTo S256x1024 v37 broadcasts_S1x1024_S256x1024 (ix2 r d) = v37 (ix2 (0 : Fin 1) d) :=
        broadcastTo_1b_ab_apply v37 broadcasts_S1x1024_S256x1024 r d
      have h38 : broadcastTo S256x1024 (shapeCast S1x1024 v38 shapeCasts_S1x1024_S1x1024) broadcasts_S1x1024_S256x1024 (ix2 r d)
          = v38 (ix2 (0 : Fin 1) d) :=
        (broadcastTo_1b_ab_apply _ broadcasts_S1x1024_S256x1024 r d).trans
          (congrFun (shapeCast_self v38 shapeCasts_S1x1024_S1x1024) _)
      have h40 : broadcastTo S256x1024 (shapeCast S1x1024 v40 shapeCasts_S1x1024_S1x1024) broadcasts_S1x1024_S256x1024 (ix2 r d)
          = v40 (ix2 (0 : Fin 1) d) :=
        (broadcastTo_1b_ab_apply _ broadcasts_S1x1024_S256x1024 r d).trans
          (congrFun (shapeCast_self v40 shapeCasts_S1x1024_S1x1024) _)
      show v14 (ix2 r d) * ((broadcastTo S256x1024 v37 broadcasts_S1x1024_S256x1024 (ix2 r d) * v35 (ix2 r d)
          + broadcastTo S256x1024 (shapeCast S1x1024 v38 shapeCasts_S1x1024_S1x1024) broadcasts_S1x1024_S256x1024 (ix2 r d) * v29 (ix2 r d))
          + broadcastTo S256x1024 (shapeCast S1x1024 v40 shapeCasts_S1x1024_S1x1024) broadcasts_S1x1024_S256x1024 (ix2 r d) * v16 (ix2 r d)) = _
      rw [h37, h38, h40]
    · exact congrFun (shapeCast_self v56 shapeCasts_S1024x1024_S1024x1024) _
  · refine (broadcastTo_1b_ab_apply _ broadcasts_S1x1024_S256x1024 r e).trans ?_
    exact shapeCast_a_1a_apply v59 shapeCasts_S1024_S1x1024 0 e

end Cert.KernelIdeal.Pay

end
-- ==== Proof.ShiftIdx.lean ====
/-
  The kernel body's two causal shifts, read at an index.

  The body holds the gated product g : [256, 1024] of one block of rows and an 8-row scratch c : [8, 1024] whose
  last rows are the previous block's last rows. It forms
    * row 7 of the scratch, repeated down 256 rows;
    * the gated product moved down ONE row (a rotation along the rows by 1), its row 0 — which the rotation filled
      with the block's last row — replaced by the scratch's row 7;
    * the gated product moved down TWO rows (a rotation by 2), its row 0 replaced by the scratch's row 6 and its
      row 1 by the scratch's row 7.
  Read at row r, column d these are: c 7 d; g (r − 1) d when 1 ≤ r and c 7 d at r = 0; g (r − 2) d when 2 ≤ r,
  c 6 d at r = 0 and c 7 d at r = 1. A rotation by s along 256 rows reads row (r + 256 − s) mod 256, which is
  r − s when s ≤ r; the rows the rotation wraps around are exactly those the masks "row number = 0", "row number = 1"
  replace. The row number is a 32-bit word, and two numbers below 2³² are equal as words exactly when they are equal.
  Nothing here uses arithmetic on the values, so every statement holds for any float instance.
-/
import proofs.«174520_j68470368633596_2_alg».proof.Proof.Gen.KernelIdeal.Skeleton
import Idealize.ShloMosaic.Lib.ValueIdx
import Idealize.ShloMosaic.Lib.Pipeline.Value
import Idealize.ShloMosaic.Lib.KernelVsHost
import Idealize.ShloMosaic.Lib.Affine

noncomputable section

namespace Cert.KernelIdeal.Shift

open Cert.KernelIdeal Cert.KernelIdeal.Gen Idealize.ShloMosaic Idealize.ShloMosaic.ValueIdx

variable {F : FTy → Type} [FloatOps F]

/-! ## Words: the row number against a constant -/

/-- Two numbers below 2³² are equal as 32-bit words exactly when they are equal. -/
theorem ofNat32_inj {n m : Nat} (hn : n < 2 ^ 32) (hm : m < 2 ^ 32) :
    BitVec.ofNat 32 n = BitVec.ofNat 32 m ↔ n = m := by
  constructor
  · intro h
    have e := congrArg BitVec.toNat h
    rw [BitVec.toNat_ofNat, BitVec.toNat_ofNat, Nat.mod_eq_of_lt hn, Nat.mod_eq_of_lt hm] at e
    exact e
  · intro h
    rw [h]

/-- The comparison "equal" of two such words answers the bit 1 exactly when the numbers are equal. -/
theorem cmpi_eq_ofNat {n m : Nat} (hn : n < 2 ^ 32) (hm : m < 2 ^ 32) :
    IntOp.cmpi .eq (BitVec.ofNat 32 n) (BitVec.ofNat 32 m) = 1#1 ↔ n = m :=
  IntOp.cmpi_eq.trans (ofNat32_inj hn hm)

/-- A select on a bit that is 1 exactly when `p` holds is the `if` on `p`. -/
theorem select_of_iff {α : Type} (c : BitVec 1) (p : Prop) [Decidable p] (hc : c = 1#1 ↔ p) (a b : α) :
    Scalar.select c a b = if p then a else b := by
  by_cases hp : p
  · rw [if_pos hp, hc.2 hp]
    exact select_one a b
  · rw [if_neg hp, eq_zero_of_ne_one (fun h => hp (hc.1 h))]
    exact select_zero a b

/-- The mask "row number = c" holds at row `r` exactly when `r = c`. -/
theorem rowMask_apply (c : Nat) (hc : c < 256) (r : Fin 256) (d : Fin 1024) :
    cmpi .eq (iota .tc S256x1024 32 [0] iota_S256x1024_d0_w32) (broadcast S256x1024 (BitVec.ofNat 32 c)) (ix2 r d) = 1#1
      ↔ r.val = c := by
  show IntOp.cmpi .eq (iota .tc S256x1024 32 [0] iota_S256x1024_d0_w32 (ix2 r d)) (BitVec.ofNat 32 c) = 1#1 ↔ _
  rw [iota_single_apply]
  exact cmpi_eq_ofNat (n := r.val) (by have := r.isLt; omega) (by omega)

/-! ## One row of the scratch repeated down the block, and a rotation below its amount -/

/-- Row `k` of the 8-row scratch, cut out as one row and repeated down 256 rows, reads the scratch's row `k`. -/
theorem scratchRow_apply {α : Type} (o : Nat) (v : S8x1024.Idx → α) (hs : S8x1024.Slices ![o, 0] S1x1024)
    (k : Fin 8) (hk : k.val = o) (r : Fin 256) (d : Fin 1024) :
    broadcastTo S256x1024 (shapeCast S1x1024 (extractStridedSlice S1x1024 ![o, 0] v hs) shapeCasts_S1x1024_S1x1024)
      broadcasts_S1x1024_S256x1024 (ix2 r d) = v (ix2 k d) := by
  rw [shapeCast_self]
  refine (broadcastTo_apply _ _ (ix2 r d) (ix2 (0 : Fin 1) d)
    (fun a => match a with | ⟨0, _⟩ => rfl | ⟨1, _⟩ => rfl)).trans ?_
  exact extractStridedSlice_apply _ _ _ (ix2 (0 : Fin 1) d) (ix2 k d) (fun a => match a with
    | ⟨0, _⟩ => by show k.val = o + 0; omega
    | ⟨1, _⟩ => by show d.val = 0 + d.val; omega)

/-- A rotation by `s` along the 256 rows, read at a row `r` with `s ≤ r`, is the operand's row `r − s`. -/
theorem rotate_apply {α : Type} (g : S256x1024.Idx → α) (sb : BitVec 32) (s : Nat) (hsb : sb.toNat = s)
    (r : Fin 256) (d : Fin 1024) (h : s ≤ r.val) :
    dynamicRotate 0 sb none g rotates_S256x1024_d0 (ix2 r d)
      = g (ix2 (⟨r.val - s, by have := r.isLt; omega⟩ : Fin 256) d) := by
  refine dynamicRotate_apply 0 sb g rotates_S256x1024_d0 (ix2 r d) _ (fun b => match b with
    | ⟨0, _⟩ => by
        show r.val - s = (r.val + 256 - sb.toNat % 256) % 256
        rw [hsb]
        have := r.isLt
        omega
    | ⟨1, _⟩ => rfl)

/-! ## The three payloads -/

/-- Row 7 of the scratch repeated down the block. -/
theorem pay7_apply (v17 : Vec F S8x1024 .f32) (r : Fin 256) (d : Fin 1024) :
    k0_pay7 v17 (ix2 r d) = v17 (ix2 (7 : Fin 8) d) :=
  scratchRow_apply 7 v17 slices_S8x1024_o7_0_S1x1024 7 rfl r d

/-- The shift by one row of any `g`, the scratch's row 7 in row 0. -/
theorem shift1_apply (g : FVec F S256x1024 .f32) (v17 : Vec F S8x1024 .f32) (r : Fin 256) (d : Fin 1024) :
    select (cmpi .eq (iota .tc S256x1024 32 [0] iota_S256x1024_d0_w32) (broadcast S256x1024 0#32)) (k0_pay7 v17)
        (dynamicRotate 0 1#32 none g rotates_S256x1024_d0) (ix2 r d)
      = if h : 1 ≤ r.val then g (ix2 (⟨r.val - 1, by have := r.isLt; omega⟩ : Fin 256) d)
        else v17 (ix2 (7 : Fin 8) d) := by
  rw [select_apply, select_of_iff _ _ (rowMask_apply 0 (by omega) r d)]
  by_cases h : 1 ≤ r.val
  · rw [dif_pos h, if_neg (by omega)]
    exact rotate_apply g 1#32 1 rfl r d h
  · rw [dif_neg h, if_pos (by omega)]
    exact pay7_apply v17 r d

/-- The shift by two rows of any `g`, the scratch's row 6 in row 0 and its row 7 in row 1. -/
theorem shift2_apply (g : FVec F S256x1024 .f32) (v17 : Vec F S8x1024 .f32) (r : Fin 256) (d : Fin 1024) :
    select (cmpi .eq (iota .tc S256x1024 32 [0] iota_S256x1024_d0_w32) (broadcast S256x1024 0#32))
        (broadcastTo S256x1024 (shapeCast S1x1024 (extractStridedSlice S1x1024 ![6, 0] v17 slices_S8x1024_o6_0_S1x1024)
          shapeCasts_S1x1024_S1x1024) broadcasts_S1x1024_S256x1024)
        (select (cmpi .eq (iota .tc S256x1024 32 [0] iota_S256x1024_d0_w32) (broadcast S256x1024 1#32)) (k0_pay7 v17)
          (dynamicRotate 0 2#32 none g rotates_S256x1024_d0)) (ix2 r d)
      = if h : 2 ≤ r.val then g (ix2 (⟨r.val - 2, by have := r.isLt; omega⟩ : Fin 256) d)
        else if r.val = 0 then v17 (ix2 (6 : Fin 8) d) else v17 (ix2 (7 : Fin 8) d) := by
  rw [select_apply, select_of_iff _ _ (rowMask_apply 0 (by omega) r d),
    select_apply, select_of_iff _ _ (rowMask_apply 1 (by omega) r d)]
  by_cases h : 2 ≤ r.val
  · rw [dif_pos h, if_neg (by omega), if_neg (by omega)]
    exact rotate_apply g 2#32 2 rfl r d h
  · rw [dif_neg h]
    by_cases h0 : r.val = 0
    · rw [if_pos h0, if_pos h0]
      exact scratchRow_apply 6 v17 slices_S8x1024_o6_0_S1x1024 6 rfl r d
    · rw [if_neg h0, if_neg h0, if_pos (by omega)]
      exact pay7_apply v17 r d

/-- The gated product moved down one row, the scratch's row 7 in row 0. -/
theorem pay8_apply (v3 : Vec F S1x256x1024 .f32) (v6 : Vec F S1024x3072 .bf16) (v9 : Vec F S3072 .f32)
    (v17 : Vec F S8x1024 .f32) (r : Fin 256) (d : Fin 1024) :
    k0_pay8 v3 v6 v9 v17 (ix2 r d)
      = if h : 1 ≤ r.val then k0_pay6 v3 v6 v9 (ix2 (⟨r.val - 1, by have := r.isLt; omega⟩ : Fin 256) d)
        else v17 (ix2 (7 : Fin 8) d) :=
  shift1_apply (k0_pay6 v3 v6 v9) v17 r d

/-- The gated product moved down two rows, the scratch's row 6 in row 0 and its row 7 in row 1. -/
theorem pay9_apply (v3 : Vec F S1x256x1024 .f32) (v6 : Vec F S1024x3072 .bf16) (v9 : Vec F S3072 .f32)
    (v17 : Vec F S8x1024 .f32) (r : Fin 256) (d : Fin 1024) :
    k0_pay9 v3 v6 v9 v17 (ix2 r d)
      = if h : 2 ≤ r.val then k0_pay6 v3 v6 v9 (ix2 (⟨r.val - 2, by have := r.isLt; omega⟩ : Fin 256) d)
        else if r.val = 0 then v17 (ix2 (6 : Fin 8) d) else v17 (ix2 (7 : Fin 8) d) :=
  shift2_apply (k0_pay6 v3 v6 v9) v17 r d

end Cert.KernelIdeal.Shift

end
-- ==== Proof.BodyPieces.lean ====
/-
  What ONE run of the kernel body leaves in its output block and in the scratch it carries between grid points,
  as the body's payloads of the blocks it loaded — at any float model `F`; no arithmetic is opened here.

  The body has two control cases. In case A (the grid's second coordinate is 0) it first stores the zero block
  `k0_pay3` over the whole 8-row scratch; in case B it does not. In both it then loads its input blocks whole, loads the
  scratch whole, loads the three rows of the `[3,1024]` tap block one row at a time, stores the last 8 rows of the gated
  projection (`k0_pay1` of `k0_pay6`) over the whole scratch, and stores `k0_pay2` of everything over the whole output
  block. Each buffer is covered by its last whole store, so what it ends holding is that store's payload; a load of a
  whole buffer reads its contents; and in case A the scratch load reads back the zero block just stored. Hence:

    out_A / out_B   — the output block is `bodyOut` of the loaded blocks and of the scratch the shifts see: the zero
                      block `k0_pay3` in case A, the carried scratch `xs0` in case B;
    sout_A / sout_B — the scratch ends holding `k0_pay1 (k0_pay6 x0 x1 x2)` in both cases.

  The three row loads of the tap block are named `tap0`, `tap1`, `tap2` (three definitions, one per row: each is the
  read of `x3` through the one-row unit-stride rectangle at row offset `K`, exactly as the body's load spells it), and
  `tapK_apply` reads them at an index: row `0` of the `[1,1024]` block at column `d` is `x3` at `(K, d)`, since the
  rectangle places coordinate `(0, d)` at `(K + 1·0, 0 + 1·d)`.
-/
import proofs.«174520_j68470368633596_2_alg».proof.Proof.Gen.KernelIdeal.Frame
import Idealize.ShloMosaic.Lib.Pipeline.Value
import Idealize.ShloMosaic.Lib.Tactic
import Idealize.ShloMosaic.Lib.ValueIdx

noncomputable section

namespace Cert.KernelIdeal.Pieces

open Cert.KernelIdeal Cert.KernelIdeal.Gen Idealize.ShloMosaic Idealize.ShloMosaic.TcCoe Idealize.SL.Sem Idealize.ShloMosaic.ValueIdx

variable {F : FTy → Type} [FloatOps F]

/-- The zero offsets of a rank-2 whole-buffer rectangle, however spelt, are the constant-zero function. -/
theorem hz2 : (![0, 0] : Fin 2 → Nat) = fun _ => 0 := funext fun a => by fin_cases a <;> rfl
/-- The same at rank 3. -/
theorem hz3 : (![0, 0, 0] : Fin 3 → Nat) = fun _ => 0 := funext fun a => by fin_cases a <;> rfl
/-- The same at rank 1. -/
theorem hz1 : (![0] : Fin 1 → Nat) = fun _ => 0 := funext fun a => by fin_cases a <;> rfl

/-! ## The three rows of the tap block -/

/-- Row `0` of the `[3,1024]` tap block as a `[1,1024]` block: what a load through the unit-stride rectangle of one
    row (all 1024 columns) at row offset `0` reads of `x3`. -/
def tap0 (x3 : Vec F S3x1024 .f32) : Vec F S1x1024 .f32 :=
  View.ld (Val := Elt F) x3 (Rect.unit (s := S3x1024) ![0, 0] S1x1024.size Gen.inb_S3x1024_S1x1024_0_0)

/-- Row `1` of the tap block, the same way. -/
def tap1 (x3 : Vec F S3x1024 .f32) : Vec F S1x1024 .f32 :=
  View.ld (Val := Elt F) x3 (Rect.unit (s := S3x1024) ![1, 0] S1x1024.size Gen.inb_S3x1024_S1x1024_1_0)

/-- Row `2` of the tap block, the same way. -/
def tap2 (x3 : Vec F S3x1024 .f32) : Vec F S1x1024 .f32 :=
  View.ld (Val := Elt F) x3 (Rect.unit (s := S3x1024) ![2, 0] S1x1024.size Gen.inb_S3x1024_S1x1024_2_0)

/-- `tap0` at column `d` is `x3` at `(0, d)`: the rectangle places `(0, d)` at `(0 + 1·0, 0 + 1·d)`. -/
theorem tap0_apply (x3 : Vec F S3x1024 .f32) (d : Fin 1024) :
    tap0 x3 (ix2 (0 : Fin 1) d) = x3 (ix2 (0 : Fin 3) d) := by
  unfold tap0
  refine congrArg x3 (funext fun a => Fin.ext ?_)
  rw [LoadRect.idx_apply]
  match a with
  | ⟨0, _⟩ => show 0 + 1 * 0 = 0; rfl
  | ⟨1, _⟩ => show 0 + 1 * d.val = d.val; omega

/-- `tap1` at column `d` is `x3` at `(1, d)`: the rectangle places `(0, d)` at `(1 + 1·0, 0 + 1·d)`. -/
theorem tap1_apply (x3 : Vec F S3x1024 .f32) (d : Fin 1024) :
    tap1 x3 (ix2 (0 : Fin 1) d) = x3 (ix2 (1 : Fin 3) d) := by
  unfold tap1
  refine congrArg x3 (funext fun a => Fin.ext ?_)
  rw [LoadRect.idx_apply]
  match a with
  | ⟨0, _⟩ => show 1 + 1 * 0 = 1; rfl
  | ⟨1, _⟩ => show 0 + 1 * d.val = d.val; omega

/-- `tap2` at column `d` is `x3` at `(2, d)`: the rectangle places `(0, d)` at `(2 + 1·0, 0 + 1·d)`. -/
theorem tap2_apply (x3 : Vec F S3x1024 .f32) (d : Fin 1024) :
    tap2 x3 (ix2 (0 : Fin 1) d) = x3 (ix2 (2 : Fin 3) d) := by
  unfold tap2
  refine congrArg x3 (funext fun a => Fin.ext ?_)
  rw [LoadRect.idx_apply]
  match a with
  | ⟨0, _⟩ => show 2 + 1 * 0 = 2; rfl
  | ⟨1, _⟩ => show 0 + 1 * d.val = d.val; omega

/-! ## The output block and the carried scratch after one run of the body -/

/-- What one run of the body stores over its whole output block, as a function of the blocks it loaded and of the
    8-row scratch `xs` its two row shifts read: the store's payload `k0_pay2` over the gate (`k0_pay5`), the gated
    projection (`k0_pay6`), its shifts by one and by two rows filled from `xs` (`k0_pay8`, `k0_pay9`), the three tap rows,
    the output weights `x4` and bias `x5`. -/
def bodyOut (x0 : Vec F S1x256x1024 .f32) (x1 : Vec F S1024x3072 .bf16) (x2 : Vec F S3072 .f32)
    (x3 : Vec F S3x1024 .f32) (x4 : Vec F S1024x1024 .bf16) (x5 : Vec F S1024 .f32) (xs : Vec F S8x1024 .f32) :
    Vec F S1x256x1024 .f32 :=
  k0_pay2 (k0_pay5 x0 x1 x2) (k0_pay6 x0 x1 x2) (k0_pay8 x0 x1 x2 xs) (k0_pay9 x0 x1 x2 xs)
    (k0_pay10 (tap0 x3)) (tap1 x3) (tap2 x3) x4 x5

/-- CASE B's scratch: its one piece is the whole-buffer store of the last 8 rows of the gated projection, whose
    operand is computed from whole-buffer loads of `x0`, `x1`, `x2`. -/
theorem sout_B (c : Dev nD) (i : grid0.Coords) (arg2 : Memref sig .tc .vmem S1x256x1024 .f32) (harg2 : arg2.IsWhole) (arg3 : Memref sig .tc .vmem S1024x3072 .bf16) (harg3 : arg3.IsWhole) (arg4 : Memref sig .tc .vmem S3072 .f32) (harg4 : arg4.IsWhole) (arg5 : Memref sig .tc .vmem S3x1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1x256x1024 .f32) (harg8 : arg8.IsWhole) (arg9 : Memref sig .tc .vmem S8x1024 .f32) (harg9 : arg9.IsWhole) (hc0 : ¬cond0_0 i)
    (x0 : Vec F S1x256x1024 .f32) (x1 : Vec F S1024x3072 .bf16) (x2 : Vec F S3072 .f32) (x3 : Vec F S3x1024 .f32) (x4 : Vec F S1024x1024 .bf16) (x5 : Vec F S1024 .f32) (xs0 : Vec F S8x1024 .f32) :
    sout0_B_0 c i arg2 harg2 arg3 harg3 arg4 harg4 arg5 harg5 arg6 harg6 arg7 harg7 arg8 harg8 arg9 harg9 hc0 x0 x1 x2 x3 x4 x5 xs0 = k0_pay1 (k0_pay6 x0 x1 x2) := by
  unfold sout0_B_0
  rw [View.read_writes_eq_canon _ _ _ (scover0_B_0 c i arg2 harg2 arg3 harg3 arg4 harg4 arg5 harg5 arg6 harg6 arg7 harg7 arg8 harg8 arg9 harg9 hc0 x0 x1 x2 x3 x4 x5 xs0)]
  unfold kernelRun0_B
  dsimp only
  sl_unfold_words
  rw [View.canon_unit_zero (S := S8x1024) hz2]
  simp only [View.readAt_eq_ld, harg2.read_unread, harg3.read_unread, harg4.read_unread,
    View.ld_unit_zero (S := S1x256x1024) hz3, View.ld_unit_zero (S := S1024x3072) hz2,
    View.ld_unit_zero (S := S3072) hz1]

/-- CASE A's scratch: two whole-buffer pieces, the zero store first and the store of the last 8 rows of the gated
    projection last; the last one covers, so it is what the scratch ends holding. -/
theorem sout_A (c : Dev nD) (i : grid0.Coords) (arg2 : Memref sig .tc .vmem S1x256x1024 .f32) (harg2 : arg2.IsWhole) (arg3 : Memref sig .tc .vmem S1024x3072 .bf16) (harg3 : arg3.IsWhole) (arg4 : Memref sig .tc .vmem S3072 .f32) (harg4 : arg4.IsWhole) (arg5 : Memref sig .tc .vmem S3x1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1x256x1024 .f32) (harg8 : arg8.IsWhole) (arg9 : Memref sig .tc .vmem S8x1024 .f32) (harg9 : arg9.IsWhole) (hc0 : cond0_0 i)
    (x0 : Vec F S1x256x1024 .f32) (x1 : Vec F S1024x3072 .bf16) (x2 : Vec F S3072 .f32) (x3 : Vec F S3x1024 .f32) (x4 : Vec F S1024x1024 .bf16) (x5 : Vec F S1024 .f32) :
    sout0_A_0 c i arg2 harg2 arg3 harg3 arg4 harg4 arg5 harg5 arg6 harg6 arg7 harg7 arg8 harg8 arg9 harg9 hc0 x0 x1 x2 x3 x4 x5 = k0_pay1 (k0_pay6 x0 x1 x2) := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S8x1024) hz2]
  simp only [View.readAt_eq_ld, harg2.read_unread, harg3.read_unread, harg4.read_unread,
    View.ld_unit_zero (S := S1x256x1024) hz3, View.ld_unit_zero (S := S1024x3072) hz2,
    View.ld_unit_zero (S := S3072) hz1]

/-- CASE B's output block: its one piece is the whole-block store of `k0_pay2`, whose operands come from whole-buffer
    loads of the inputs and of the carried scratch `xs0`, and from the three one-row loads of the tap block. -/
theorem out_B (c : Dev nD) (i : grid0.Coords) (arg2 : Memref sig .tc .vmem S1x256x1024 .f32) (harg2 : arg2.IsWhole) (arg3 : Memref sig .tc .vmem S1024x3072 .bf16) (harg3 : arg3.IsWhole) (arg4 : Memref sig .tc .vmem S3072 .f32) (harg4 : arg4.IsWhole) (arg5 : Memref sig .tc .vmem S3x1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1x256x1024 .f32) (harg8 : arg8.IsWhole) (arg9 : Memref sig .tc .vmem S8x1024 .f32) (harg9 : arg9.IsWhole) (hc0 : ¬cond0_0 i)
    (x0 : Vec F S1x256x1024 .f32) (x1 : Vec F S1024x3072 .bf16) (x2 : Vec F S3072 .f32) (x3 : Vec F S3x1024 .f32) (x4 : Vec F S1024x1024 .bf16) (x5 : Vec F S1024 .f32) (xs0 : Vec F S8x1024 .f32) :
    out0_B_6 c i arg2 harg2 arg3 harg3 arg4 harg4 arg5 harg5 arg6 harg6 arg7 harg7 arg8 harg8 arg9 harg9 hc0 x0 x1 x2 x3 x4 x5 xs0 = bodyOut x0 x1 x2 x3 x4 x5 xs0 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 x5 xs0)]
  unfold kernelRun0_B
  dsimp only
  sl_unfold_words
  rw [View.canon_unit_zero (S := S1x256x1024) hz3]
  simp only [View.readAt_eq_ld, harg2.read_unread, harg3.read_unread, harg4.read_unread, harg5.read_unread,
    harg6.read_unread, harg7.read_unread, harg9.read_unread,
    View.ld_unit_zero (S := S1x256x1024) hz3, View.ld_unit_zero (S := S1024x3072) hz2,
    View.ld_unit_zero (S := S3072) hz1, View.ld_unit_zero (S := S8x1024) hz2,
    View.ld_unit_zero (S := S1024x1024) hz2, View.ld_unit_zero (S := S1024) hz1]
  rfl

/-- CASE A's output block: the same store, where the scratch the shifts read is the whole-buffer load of what the
    zero store just left — the zero block `k0_pay3`. -/
theorem out_A (c : Dev nD) (i : grid0.Coords) (arg2 : Memref sig .tc .vmem S1x256x1024 .f32) (harg2 : arg2.IsWhole) (arg3 : Memref sig .tc .vmem S1024x3072 .bf16) (harg3 : arg3.IsWhole) (arg4 : Memref sig .tc .vmem S3072 .f32) (harg4 : arg4.IsWhole) (arg5 : Memref sig .tc .vmem S3x1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1x256x1024 .f32) (harg8 : arg8.IsWhole) (arg9 : Memref sig .tc .vmem S8x1024 .f32) (harg9 : arg9.IsWhole) (hc0 : cond0_0 i)
    (x0 : Vec F S1x256x1024 .f32) (x1 : Vec F S1024x3072 .bf16) (x2 : Vec F S3072 .f32) (x3 : Vec F S3x1024 .f32) (x4 : Vec F S1024x1024 .bf16) (x5 : Vec F S1024 .f32) :
    out0_A_6 c i arg2 harg2 arg3 harg3 arg4 harg4 arg5 harg5 arg6 harg6 arg7 harg7 arg8 harg8 arg9 harg9 hc0 x0 x1 x2 x3 x4 x5 = bodyOut x0 x1 x2 x3 x4 x5 (k0_pay3 (F := F)) := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_unit_zero (S := S1x256x1024) hz3, View.readCov_unit_zero (S := S8x1024) _ hz2]
  simp only [View.readAt_eq_ld, harg2.read_unread, harg3.read_unread, harg4.read_unread, harg5.read_unread,
    harg6.read_unread, harg7.read_unread,
    View.ld_unit_zero (S := S1x256x1024) hz3, View.ld_unit_zero (S := S1024x3072) hz2,
    View.ld_unit_zero (S := S3072) hz1,
    View.ld_unit_zero (S := S1024x1024) hz2, View.ld_unit_zero (S := S1024) hz1]
  rfl

end Cert.KernelIdeal.Pieces

end
-- ==== Proof.ConvValue.lean ====
/-
  The kernel's result array, after its run at the extended reals, is the specification of its argument arrays.

  The grid point t handles batch t / 8 and the 256 rows from 256·(t % 8). One run of the body computes the
  projection of its block, the gated product g and the middle third p, shifts g down by one and by two rows
  (a rotation whose first rows are replaced by rows carried in a scratch), combines the three taps, multiplies
  by p and applies the output projection. The scratch carries the last eight rows of g from one point to the
  next and is reset to zero at each batch's first row block; so what the shifts find in it at point t is, row q,
  the gated product 8 − q rows before the block's first row — zero before the batch's first row. That is exactly
  the causal left padding, and the block of the result at t is the block of the specification. The blocks of
  the 128 points tile the array.
-/
import proofs.«174520_j68470368633596_2_alg».proof.Proof.Gen.KernelIdeal.Value
import proofs.«174520_j68470368633596_2_alg».proof.Proof.Blocks
import proofs.«174520_j68470368633596_2_alg».proof.Proof.ConvSpec
import proofs.«174520_j68470368633596_2_alg».proof.Proof.PayloadIdx
import proofs.«174520_j68470368633596_2_alg».proof.Proof.ShiftIdx
import proofs.«174520_j68470368633596_2_alg».proof.Proof.BodyPieces
import Idealize.ShloMosaic.Lib.Pipeline.Value
import Idealize.ShloMosaic.Lib.ValueIdx

noncomputable section

/-! ## The kernel's result array is the specification -/

namespace Cert.KernelIdeal.ConvValue

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Blocks Cert.KernelIdeal.Pieces

variable (m : (ℓ : Loc nD τ sig) → Buf (Elt Ideal) ℓ) (ρ : Dev nD → PrngReg)

/-- The specification at core `c`'s argument arrays. -/
def Gk (c : Dev nD) : Buf (Elt Ideal) ((c : Thread nD τ).loc main_v5) :=
  Cert.ConvSpec.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem hN : cfg0.N = 128 := N_0

/-- The body's projection of point `t`'s blocks at (r, e) is the specification's projection at batch t / 8,
    row 256·(t % 8) + r. -/
theorem proj_blk (c : Dev nD) (t : Fin cfg0.N) (r : Fin 256) (e : Fin 3072) (b : Fin 16) (t' : Fin 2048)
    (hb : b.val = t.val / 8) (ht : t'.val = 256 * (t.val % 8) + r.val) :
    k0_pay4 (iblk m c 0 t) (iblk m c 1 t) (iblk m c 2 t) (ix2 r e)
      = Cert.ConvSpec.proj (m ((c : Thread nD τ).loc main_arg0)) (m ((c : Thread nD τ).loc main_arg1)) (m ((c : Thread nD τ).loc main_arg2)) b t' e := by
  have hb' : b = ⟨t.val / 8, by have := lt_of_lt_of_eq t.isLt hN; clear hb ht; omega⟩ := Fin.ext hb
  have ht' : t' = ⟨256 * (t.val % 8) + r.val, by have := r.isLt; clear hb ht hb'; omega⟩ := Fin.ext ht
  rw [hb', ht']
  refine (Cert.KernelIdeal.Pay.pay4_apply (iblk m c 0 t) (iblk m c 1 t) (iblk m c 2 t) r e).trans ?_
  unfold Cert.ConvSpec.proj
  rw [iblk2_apply m c t e]
  refine congrArg (· + _) (Finset.sum_congr rfl fun k _ => ?_)
  rw [iblk0_apply m c t r k, iblk1_apply m c t k e]

/-- The gated product of point `t`'s blocks at (r, d). -/
theorem gate_blk (c : Dev nD) (t : Fin cfg0.N) (r : Fin 256) (d : Fin 1024) (b : Fin 16) (t' : Fin 2048)
    (hb : b.val = t.val / 8) (ht : t'.val = 256 * (t.val % 8) + r.val) :
    k0_pay6 (iblk m c 0 t) (iblk m c 1 t) (iblk m c 2 t) (ix2 r d)
      = Cert.ConvSpec.gate (m ((c : Thread nD τ).loc main_arg0)) (m ((c : Thread nD τ).loc main_arg1)) (m ((c : Thread nD τ).loc main_arg2)) b t' d := by
  refine (Cert.KernelIdeal.Pay.pay6_apply (iblk m c 0 t) (iblk m c 1 t) (iblk m c 2 t) r d).trans ?_
  unfold Cert.ConvSpec.gate
  rw [proj_blk m c t r _ b t' hb ht, proj_blk m c t r _ b t' hb ht]

/-- The middle third of the projection of point `t`'s blocks at (r, d). -/
theorem pass_blk (c : Dev nD) (t : Fin cfg0.N) (r : Fin 256) (d : Fin 1024) (b : Fin 16) (t' : Fin 2048)
    (hb : b.val = t.val / 8) (ht : t'.val = 256 * (t.val % 8) + r.val) :
    k0_pay5 (iblk m c 0 t) (iblk m c 1 t) (iblk m c 2 t) (ix2 r d)
      = Cert.ConvSpec.pass (m ((c : Thread nD τ).loc main_arg0)) (m ((c : Thread nD τ).loc main_arg1)) (m ((c : Thread nD τ).loc main_arg2)) b t' d := by
  refine (Cert.KernelIdeal.Pay.pay5_apply (iblk m c 0 t) (iblk m c 1 t) (iblk m c 2 t) r d).trans ?_
  unfold Cert.ConvSpec.pass
  rw [proj_blk m c t r _ b t' hb ht]

/-! ### The rows carried between points -/

/-- After ANY point the carried scratch holds the last eight rows of that point's gated product: both control
    cases end by storing them, whatever the scratch held before. -/
theorem carried_eq (c : Dev nD) (t : Fin cfg0.N) :
    (outsAt0 m c t.val t.isLt).2 = k0_pay1 (k0_pay6 (iblk m c 0 t) (iblk m c 1 t) (iblk m c 2 t)) := by
  by_cases h0 : t.val % 8 = 0
  · rw [outsAt0_A m c t h0]
    dsimp only
    exact sout_A (F := Ideal) c (grid0.coords t) (ms0_0 t) (hs0_0 t) (ms0_1 t) (hs0_1 t) (ms0_2 t) (hs0_2 t)
      (ms0_3 t) (hs0_3 t) (ms0_4 t) (hs0_4 t) (ms0_5 t) (hs0_5 t) (ms0_6 t) (hs0_6 t) scM0_0
      (Memref.isWhole_whole _) ((hcond0_0 t).mpr h0) (iblk m c 0 t) (iblk m c 1 t) (iblk m c 2 t) (iblk m c 3 t)
      (iblk m c 4 t) (iblk m c 5 t)
  · rw [outsAt0_B m c t h0]
    dsimp only
    exact sout_B (F := Ideal) c (grid0.coords t) (ms0_0 t) (hs0_0 t) (ms0_1 t) (hs0_1 t) (ms0_2 t) (hs0_2 t)
      (ms0_3 t) (hs0_3 t) (ms0_4 t) (hs0_4 t) (ms0_5 t) (hs0_5 t) (ms0_6 t) (hs0_6 t) scM0_0
      (Memref.isWhole_whole _) (fun hh => h0 ((hcond0_0 t).mp hh)) (iblk m c 0 t) (iblk m c 1 t) (iblk m c 2 t) (iblk m c 3 t)
      (iblk m c 4 t) (iblk m c 5 t) (outsAt0 m c (t.val - 1) (Nat.lt_of_le_of_lt (Nat.sub_le _ _) t.isLt)).2

/-- The causal shift by `s + 1` rows read one row later is the shift by `s` rows. -/
theorem back_succ (x : (⟨3, ![16, 2048, 1024]⟩ : Shape).Idx → EReal) (Win : (⟨2, ![3072, 1024]⟩ : Shape).Idx → EReal)
    (bin : (⟨1, ![3072]⟩ : Shape).Idx → EReal) (s : Nat) (b : Fin 16) (t t1 : Fin 2048) (d : Fin 1024) (h1 : t1.val = t.val + 1) :
    Cert.ConvSpec.back x Win bin (s + 1) b t1 d = Cert.ConvSpec.back x Win bin s b t d := by
  unfold Cert.ConvSpec.back
  by_cases hs : s ≤ t.val
  · rw [dif_pos hs, dif_pos (by omega : s + 1 ≤ t1.val)]
    exact congrArg (fun u => Cert.ConvSpec.gate x Win bin b u d) (Fin.ext (by show t1.val - (s + 1) = t.val - s; omega))
  · rw [dif_neg hs, dif_neg (by omega : ¬ s + 1 ≤ t1.val)]

/-- What the shifts of point `t` find in the scratch: at a batch's first row block the zeros just stored, otherwise
    the previous point's last eight rows. Either way row `q` is the gated product `8 − q` rows before the block's first
    row, zero where that is before the batch's first row. -/
def Carried (c : Dev nD) (t : Fin cfg0.N) (xs : Vec Ideal S8x1024 .f32) : Prop :=
  ∀ (q : Fin 8) (d : Fin 1024) (b : Fin 16) (t0 : Fin 2048), b.val = t.val / 8 → t0.val = 256 * (t.val % 8) →
    xs (ix2 q d) = Cert.ConvSpec.back (m ((c : Thread nD τ).loc main_arg0)) (m ((c : Thread nD τ).loc main_arg1)) (m ((c : Thread nD τ).loc main_arg2)) (8 - q.val) b t0 d

theorem carried_first (c : Dev nD) (t : Fin cfg0.N) (h0 : t.val % 8 = 0) : Carried m c t (k0_pay3 (F := Ideal)) := by
  intro q d b t0 hb ht0
  rw [Cert.KernelIdeal.Pay.pay3_apply q d]
  unfold Cert.ConvSpec.back
  rw [dif_neg (by have := q.isLt; omega)]

theorem carried_next (c : Dev nD) (t : Fin cfg0.N) (h0 : ¬t.val % 8 = 0) :
    Carried m c t (outsAt0 m c (t.val - 1) (Nat.lt_of_le_of_lt (Nat.sub_le _ _) t.isLt)).2 := by
  intro q d b t0 hb ht0
  have hq := q.isLt
  have htN := lt_of_lt_of_eq t.isLt hN
  have e := carried_eq m c ⟨t.val - 1, Nat.lt_of_le_of_lt (Nat.sub_le _ _) t.isLt⟩
  dsimp only at e
  rw [e]
  refine (Cert.KernelIdeal.Pay.pay1_apply _ q d).trans ?_
  unfold Cert.ConvSpec.back
  rw [dif_pos (by omega)]
  exact gate_blk m c ⟨t.val - 1, _⟩ _ d b _ (by show b.val = (t.val - 1) / 8; omega)
    (by show t0.val - (8 - q.val) = 256 * ((t.val - 1) % 8) + (248 + q.val); omega)

/-! ### One run of the body at a point -/

/-- The shift by one row of point `t`'s blocks at (r, d). -/
theorem back1_blk (c : Dev nD) (t : Fin cfg0.N) (xs : Vec Ideal S8x1024 .f32) (hxs : Carried m c t xs) (r : Fin 256) (d : Fin 1024)
    (b : Fin 16) (t' : Fin 2048) (hb : b.val = t.val / 8) (ht : t'.val = 256 * (t.val % 8) + r.val) :
    k0_pay8 (iblk m c 0 t) (iblk m c 1 t) (iblk m c 2 t) xs (ix2 r d)
      = Cert.ConvSpec.back (m ((c : Thread nD τ).loc main_arg0)) (m ((c : Thread nD τ).loc main_arg1)) (m ((c : Thread nD τ).loc main_arg2)) 1 b t' d := by
  have hr := r.isLt
  refine (Cert.KernelIdeal.Shift.pay8_apply (iblk m c 0 t) (iblk m c 1 t) (iblk m c 2 t) xs r d).trans ?_
  by_cases h1 : 1 ≤ r.val
  · rw [dif_pos h1]
    unfold Cert.ConvSpec.back
    rw [dif_pos (by omega)]
    exact gate_blk m c t _ d b _ hb (by show t'.val - 1 = 256 * (t.val % 8) + (r.val - 1); omega)
  · rw [dif_neg h1]
    exact hxs 7 d b t' hb (by omega)

/-- The shift by two rows of point `t`'s blocks at (r, d). -/
theorem back2_blk (c : Dev nD) (t : Fin cfg0.N) (xs : Vec Ideal S8x1024 .f32) (hxs : Carried m c t xs) (r : Fin 256) (d : Fin 1024)
    (b : Fin 16) (t' : Fin 2048) (hb : b.val = t.val / 8) (ht : t'.val = 256 * (t.val % 8) + r.val) :
    k0_pay9 (iblk m c 0 t) (iblk m c 1 t) (iblk m c 2 t) xs (ix2 r d)
      = Cert.ConvSpec.back (m ((c : Thread nD τ).loc main_arg0)) (m ((c : Thread nD τ).loc main_arg1)) (m ((c : Thread nD τ).loc main_arg2)) 2 b t' d := by
  have hr := r.isLt
  refine (Cert.KernelIdeal.Shift.pay9_apply (iblk m c 0 t) (iblk m c 1 t) (iblk m c 2 t) xs r d).trans ?_
  by_cases h2 : 2 ≤ r.val
  · rw [dif_pos h2]
    unfold Cert.ConvSpec.back
    rw [dif_pos (by omega)]
    exact gate_blk m c t _ d b _ hb (by show t'.val - 2 = 256 * (t.val % 8) + (r.val - 2); omega)
  · rw [dif_neg h2]
    by_cases h0 : r.val = 0
    · rw [if_pos h0]
      exact hxs 6 d b t' hb (by omega)
    · rw [if_neg h0]
      have ht0 : 256 * (t.val % 8) < 2048 := by omega
      refine (hxs 7 d b ⟨256 * (t.val % 8), ht0⟩ hb rfl).trans ?_
      exact (back_succ _ _ _ 1 b ⟨256 * (t.val % 8), ht0⟩ t' d (by show t'.val = 256 * (t.val % 8) + 1; omega)).symm

/-- ONE RUN OF THE BODY at point `t`, over a scratch holding the carried rows, leaves at (0, r, e) the
    specification's output at batch t / 8, row 256·(t % 8) + r. -/
theorem bodyOut_blk (c : Dev nD) (t : Fin cfg0.N) (xs : Vec Ideal S8x1024 .f32) (hxs : Carried m c t xs) (r : Fin 256) (e : Fin 1024)
    (b : Fin 16) (t' : Fin 2048) (hb : b.val = t.val / 8) (ht : t'.val = 256 * (t.val % 8) + r.val) :
    bodyOut (iblk m c 0 t) (iblk m c 1 t) (iblk m c 2 t) (iblk m c 3 t) (iblk m c 4 t) (iblk m c 5 t) xs (ix3 (0 : Fin 1) r e)
      = Cert.ConvSpec.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) b t' e := by
  unfold bodyOut
  refine (Cert.KernelIdeal.Pay.pay2_apply _ _ _ _ _ _ _ _ _ r e).trans ?_
  unfold Cert.ConvSpec.out Cert.ConvSpec.conv
  rw [iblk5_apply m c t e]
  refine congrArg (· + _) (Finset.sum_congr rfl fun d _ => ?_)
  rw [pass_blk m c t r d b t' hb ht, gate_blk m c t r d b t' hb ht, back1_blk m c t xs hxs r d b t' hb ht,
    back2_blk m c t xs hxs r d b t' hb ht, Cert.KernelIdeal.Pay.pay10_apply, tap0_apply, tap1_apply, tap2_apply,
    iblk3_apply m c t 0 d, iblk3_apply m c t 1 d, iblk3_apply m c t 2 d, iblk4_apply m c t d e]

/-! ### From blocks to the array -/

/-- WHAT POINT `t` WRITES BACK is block `t` of the specification. -/
theorem flushed_eq (c : Dev nD) (t : Fin cfg0.N) :
    (dats m 0 c).flushed 6 t = ((cfg0.win 6).blk t).view.read (Elt Ideal) (Gk m c) := by
  have htN := lt_of_lt_of_eq t.isLt hN
  obtain ⟨-, -, -, -, -, -, -, -, -, -, -, e0, e1, e2⟩ := idx_facts t
  have key : ∀ (xs : Vec Ideal S8x1024 .f32), Carried m c t xs →
      (cfg0.win 6).cut (grid0.coords t) (bodyOut (iblk m c 0 t) (iblk m c 1 t) (iblk m c 2 t) (iblk m c 3 t) (iblk m c 4 t) (iblk m c 5 t) xs)
        = ((cfg0.win 6).blk t).view.read (Elt Ideal) (Gk m c) := by
    intro xs hxs
    funext j
    obtain ⟨z, r, e, rfl⟩ : ∃ (z : Fin 1) (r : Fin 256) (e : Fin 1024), j = ix3 z r e := ⟨j 0, j 1, j 2, eq_ix3 j⟩
    obtain rfl : z = 0 := Subsingleton.elim _ _
    have hr := r.isLt
    show bodyOut (iblk m c 0 t) (iblk m c 1 t) (iblk m c 2 t) (iblk m c 3 t) (iblk m c 4 t) (iblk m c 5 t) xs (ix3 (0 : Fin 1) r e)
      = Gk m c (((cfg0.win 6).blk t).view.emb (ix3 (0 : Fin 1) r e))
    have hemb : ((cfg0.win 6).blk t).view.emb (ix3 (0 : Fin 1) r e)
        = ix3 (⟨t.val / 8, by omega⟩ : Fin 16) (⟨256 * (t.val % 8) + r.val, by omega⟩ : Fin 2048) e := by
      funext a; apply Fin.ext
      match a with
      | ⟨0, _⟩ => show win0_6.index t (0 : Fin 3) * 1 + 1 * 0 = t.val / 8; omega
      | ⟨1, _⟩ => show win0_6.index t (1 : Fin 3) * 256 + 1 * r.val = 256 * (t.val % 8) + r.val; omega
      | ⟨2, _⟩ => show win0_6.index t (2 : Fin 3) * 1024 + 1 * e.val = e.val; omega
    rw [hemb]
    exact bodyOut_blk m c t xs hxs r e _ _ rfl rfl
  by_cases h0 : t.val % 8 = 0
  · rw [Cert.KernelIdeal.Value.flushed6_A m c t h0, out_A]
    exact key _ (carried_first m c t h0)
  · rw [Cert.KernelIdeal.Value.flushed6_B m c t h0, out_B]
    exact key _ (carried_next m c t h0)

/-- An index of the array is in point `t`'s block iff each coordinate is in the block's range on its axis. -/
theorem mem_blk (t : Fin cfg0.N) (i : S16x2048x1024.Idx) :
    i ∈ ((cfg0.win 6).blk t).view.set ↔ ∀ a : Fin 3, win0_6.index t a * S1x256x1024.size a ≤ (i a).val ∧ (i a).val < win0_6.index t a * S1x256x1024.size a + S1x256x1024.size a := by
  show i ∈ ((View.whole main_v5).slice (win0_6.rect t)).set ↔ _
  rw [View.set_slice_whole, Rect.mem_set_unit]
  exact Iff.rfl

/-- Every index of the result is in the block of the point of its batch and row block. -/
theorem cover (i : S16x2048x1024.Idx) :
    ∃ t : Fin cfg0.N, (cfg0.win 6).flush t = true ∧ i ∈ ((cfg0.win 6).blk t).view.set := by
  have h0 : (i 0).val < 16 := (i 0).isLt
  have h1 : (i 1).val < 2048 := (i 1).isLt
  have h2 : (i 2).val < 1024 := (i 2).isLt
  have hlt : 8 * (i 0).val + (i 1).val / 256 < cfg0.N := by rw [hN]; omega
  refine ⟨⟨8 * (i 0).val + (i 1).val / 256, hlt⟩, flush0_6 _, ?_⟩
  obtain ⟨-, -, -, -, -, -, -, -, -, -, -, e0, e1, e2⟩ := idx_facts ⟨8 * (i 0).val + (i 1).val / 256, hlt⟩
  rw [mem_blk]
  intro a
  match a with
  | ⟨0, _⟩ =>
    show win0_6.index ⟨8 * (i 0).val + (i 1).val / 256, hlt⟩ (0 : Fin 3) * 1 ≤ (i 0).val ∧ (i 0).val < win0_6.index ⟨8 * (i 0).val + (i 1).val / 256, hlt⟩ (0 : Fin 3) * 1 + 1
    rw [e0]; dsimp only; omega
  | ⟨1, _⟩ =>
    show win0_6.index ⟨8 * (i 0).val + (i 1).val / 256, hlt⟩ (1 : Fin 3) * 256 ≤ (i 1).val ∧ (i 1).val < win0_6.index ⟨8 * (i 0).val + (i 1).val / 256, hlt⟩ (1 : Fin 3) * 256 + 256
    rw [e1]; dsimp only; omega
  | ⟨2, _⟩ =>
    show win0_6.index ⟨8 * (i 0).val + (i 1).val / 256, hlt⟩ (2 : Fin 3) * 1024 ≤ (i 2).val ∧ (i 2).val < win0_6.index ⟨8 * (i 0).val + (i 1).val / 256, hlt⟩ (2 : Fin 3) * 1024 + 1024
    rw [e2]; omega

/-- THE RESULT ARRAY after the run is the specification of the argument arrays. -/
theorem final (c : Dev nD) : (dats m 0 c).arrAt 6 cfg0.N = Gk m c :=
  (dats m 0 c).arrAt_eq_of_cover 6 (Gk m c) (fun t _ => flushed_eq m c t) cover

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v5) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.ConvValue

end
-- ==== Proof.RefIsSpec.lean ====
/-
  The reference program's result, read index by index, is the gated causal depthwise convolution of the
  specification: stage by stage, each host operation's value at an index built from its coordinates is the
  corresponding quantity of the specification at those coordinates.
-/
import proofs.«174520_j68470368633596_2_alg».proof.Proof.Gen.ReferenceIdeal.Read
import proofs.«174520_j68470368633596_2_alg».proof.Proof.ConvSpec
import Idealize.ShloMosaic.Lib.KernelVsHost
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx

/-- The six argument arrays' types. -/
abbrev X0 : Type := (⟨S16x2048x1024, .f32⟩ : BufTy).Contents (Elt Ideal)
abbrev X1 : Type := (⟨S3072x1024, .f32⟩ : BufTy).Contents (Elt Ideal)
abbrev X2 : Type := (⟨S3072, .f32⟩ : BufTy).Contents (Elt Ideal)
abbrev X3 : Type := (⟨S1024x3, .f32⟩ : BufTy).Contents (Elt Ideal)
abbrev X4 : Type := (⟨S1024x1024, .f32⟩ : BufTy).Contents (Elt Ideal)
abbrev X5 : Type := (⟨S1024, .f32⟩ : BufTy).Contents (Elt Ideal)

/-! ## The input projection -/

theorem lidx_v0_at (b : Fin 16) (t : Fin 2048) (e : Fin 3072) (k : Fin 1024) :
    lidx_main_v0 (ix3 b t e) k = ix3 b t k :=
  funext fun a => by match a with | ⟨0, _⟩ => rfl | ⟨1, _⟩ => rfl | ⟨2, _⟩ => rfl

theorem ridx_v0_at (b : Fin 16) (t : Fin 2048) (e : Fin 3072) (k : Fin 1024) :
    ridx_main_v0 (ix3 b t e) k = ix2 e k :=
  funext fun a => by match a with | ⟨0, _⟩ => rfl | ⟨1, _⟩ => rfl

theorem idx_v1_v2_at (b : Fin 16) (t : Fin 2048) (e : Fin 3072) :
    idx_main_v1 (idx_main_v2 (ix3 b t e)) = ix1 e :=
  funext fun a => by match a with | ⟨0, _⟩ => rfl

/-- The sum of the first dot product and the broadcast bias is the projection. -/
theorem v3_at (x0 : X0) (x1 : X1) (x2 : X2) (b : Fin 16) (t : Fin 2048) (e : Fin 3072) :
    val_main_v3 (F := Ideal) x0 x1 x2 (ix3 b t e) = Cert.ConvSpec.proj x0 x1 x2 b t e := by
  rw [val_main_v3_apply, val_main_v0_apply, val_main_v2_apply, val_main_v1_apply]
  simp only [lidx_v0_at, ridx_v0_at, idx_v1_v2_at]
  rfl

/-! ## The three thirds of the projection -/

theorem idx_v4_at (b : Fin 16) (t : Fin 2048) (d : Fin 1024) :
    idx_main_v4 (ix3 b t d) = ix3 b t (⟨d.val, by have := d.isLt; omega⟩ : Fin 3072) :=
  funext fun a => by match a with | ⟨0, _⟩ => rfl | ⟨1, _⟩ => rfl | ⟨2, _⟩ => rfl

theorem idx_v5_at (b : Fin 16) (t : Fin 2048) (d : Fin 1024) :
    idx_main_v5 (ix3 b t d) = ix3 b t (⟨1024 + d.val, by have := d.isLt; omega⟩ : Fin 3072) :=
  funext fun a => by match a with | ⟨0, _⟩ => rfl | ⟨1, _⟩ => rfl | ⟨2, _⟩ => rfl

theorem idx_v6_at (b : Fin 16) (t : Fin 2048) (d : Fin 1024) :
    idx_main_v6 (ix3 b t d) = ix3 b t (⟨2048 + d.val, by have := d.isLt; omega⟩ : Fin 3072) :=
  funext fun a => by match a with | ⟨0, _⟩ => rfl | ⟨1, _⟩ => rfl | ⟨2, _⟩ => rfl

/-- The first third times the last third is the gated product. -/
theorem v7_at (x0 : X0) (x1 : X1) (x2 : X2) (b : Fin 16) (t : Fin 2048) (d : Fin 1024) :
    val_main_v7 (F := Ideal) x0 x1 x2 (ix3 b t d) = Cert.ConvSpec.gate x0 x1 x2 b t d := by
  rw [val_main_v7_apply, val_main_v4_apply, val_main_v6_apply, idx_v4_at, idx_v6_at, v3_at, v3_at]
  rfl

/-- The middle third is the factor that multiplies the convolution. -/
theorem v5_at (x0 : X0) (x1 : X1) (x2 : X2) (b : Fin 16) (t : Fin 2048) (d : Fin 1024) :
    val_main_v5 (F := Ideal) x0 x1 x2 (ix3 b t d) = Cert.ConvSpec.pass x0 x1 x2 b t d := by
  rw [val_main_v5_apply, idx_v5_at, v3_at]
  rfl

/-! ## The causal left padding -/

/-- The padded array at row `t'` of 2050 is the gated product two rows earlier, and the extended real zero in the
    first two rows. -/
theorem v8_at (x0 : X0) (x1 : X1) (x2 : X2) (b : Fin 16) (t' : Fin 2050) (d : Fin 1024) :
    val_main_v8 (F := Ideal) x0 x1 x2 (ix3 b t' d)
      = if h : 2 ≤ t'.val then Cert.ConvSpec.gate x0 x1 x2 b ⟨t'.val - 2, by have := t'.isLt; omega⟩ d else 0 := by
  unfold val_main_v8
  by_cases h : 2 ≤ t'.val
  · rw [dif_pos h]
    refine (pad_apply_of_inside _ _ _ _ _ pads_S16x2048x1024_S16x2050x1024_000_200_000 h_S_ (ix3 b t' d)
      (ix3 b (⟨t'.val - 2, by have := t'.isLt; omega⟩ : Fin 2048) d) ?_).trans (v7_at x0 x1 x2 b _ d)
    intro a
    match a with
    | ⟨0, _⟩ => show b.val = 0 + b.val * (0 + 1); omega
    | ⟨1, _⟩ => show t'.val = 2 + (t'.val - 2) * (0 + 1); omega
    | ⟨2, _⟩ => show d.val = 0 + d.val * (0 + 1); omega
  · rw [dif_neg h]
    refine (pad_apply_of_not_inside _ _ _ _ _ pads_S16x2048x1024_S16x2050x1024_000_200_000 h_S_ (ix3 b t' d)
      (1 : Fin 3) (fun hin => h hin.1)).trans ?_
    rw [val_main_call0_v0_apply, val_main_c_apply]
    exact sitofp_zero (φ := .f32)

/-! ## The three shifted reads of the padded array -/

theorem idx_v11_at (b : Fin 16) (t : Fin 2048) (d : Fin 1024) :
    idx_main_v11 (ix3 b t d) = ix3 b (⟨t.val, by have := t.isLt; omega⟩ : Fin 2050) d :=
  funext fun a => by match a with | ⟨0, _⟩ => rfl | ⟨1, _⟩ => rfl | ⟨2, _⟩ => rfl

theorem idx_v17_at (b : Fin 16) (t : Fin 2048) (d : Fin 1024) :
    idx_main_v17 (ix3 b t d) = ix3 b (⟨1 + t.val, by have := t.isLt; omega⟩ : Fin 2050) d :=
  funext fun a => by match a with | ⟨0, _⟩ => rfl | ⟨1, _⟩ => rfl | ⟨2, _⟩ => rfl

theorem idx_v24_at (b : Fin 16) (t : Fin 2048) (d : Fin 1024) :
    idx_main_v24 (ix3 b t d) = ix3 b (⟨2 + t.val, by have := t.isLt; omega⟩ : Fin 2050) d :=
  funext fun a => by match a with | ⟨0, _⟩ => rfl | ⟨1, _⟩ => rfl | ⟨2, _⟩ => rfl

/-- Rows `t` of the padded array: the gated product two rows back. -/
theorem v11_at (x0 : X0) (x1 : X1) (x2 : X2) (b : Fin 16) (t : Fin 2048) (d : Fin 1024) :
    val_main_v11 (F := Ideal) x0 x1 x2 (ix3 b t d) = Cert.ConvSpec.back x0 x1 x2 2 b t d := by
  rw [val_main_v11_apply, idx_v11_at, v8_at]
  rfl

/-- Rows `t + 1` of the padded array: the gated product one row back. -/
theorem v17_at (x0 : X0) (x1 : X1) (x2 : X2) (b : Fin 16) (t : Fin 2048) (d : Fin 1024) :
    val_main_v17 (F := Ideal) x0 x1 x2 (ix3 b t d) = Cert.ConvSpec.back x0 x1 x2 1 b t d := by
  rw [val_main_v17_apply, idx_v17_at, v8_at]
  unfold Cert.ConvSpec.back
  by_cases h : 1 ≤ t.val
  · rw [dif_pos h, dif_pos (show 2 ≤ 1 + t.val by omega)]
    exact congrArg (fun s => Cert.ConvSpec.gate x0 x1 x2 b s d) (Fin.ext (show 1 + t.val - 2 = t.val - 1 by omega))
  · rw [dif_neg h, dif_neg (show ¬ 2 ≤ 1 + t.val by omega)]

/-- Rows `t + 2` of the padded array: the gated product itself. -/
theorem v24_at (x0 : X0) (x1 : X1) (x2 : X2) (b : Fin 16) (t : Fin 2048) (d : Fin 1024) :
    val_main_v24 (F := Ideal) x0 x1 x2 (ix3 b t d) = Cert.ConvSpec.gate x0 x1 x2 b t d := by
  rw [val_main_v24_apply, idx_v24_at, v8_at, dif_pos (show 2 ≤ 2 + t.val by omega)]
  exact congrArg (fun s => Cert.ConvSpec.gate x0 x1 x2 b s d) (Fin.ext (show 2 + t.val - 2 = t.val by omega))

/-! ## The three tap columns, broadcast over batch and row -/

theorem idx_tap0_at (b : Fin 16) (t : Fin 2048) (d : Fin 1024) :
    idx_main_v9 (idx_main_v10 (idx_main_v12 (idx_main_v13 (ix3 b t d)))) = ix2 d (0 : Fin 3) :=
  funext fun a => Fin.ext (by
    match a with
    | ⟨0, _⟩ => exact Nat.div_one _
    | ⟨1, _⟩ => rfl)

theorem idx_tap1_at (b : Fin 16) (t : Fin 2048) (d : Fin 1024) :
    idx_main_v15 (idx_main_v16 (idx_main_v18 (idx_main_v19 (ix3 b t d)))) = ix2 d (1 : Fin 3) :=
  funext fun a => Fin.ext (by
    match a with
    | ⟨0, _⟩ => exact Nat.div_one _
    | ⟨1, _⟩ => rfl)

theorem idx_tap2_at (b : Fin 16) (t : Fin 2048) (d : Fin 1024) :
    idx_main_v22 (idx_main_v23 (idx_main_v25 (idx_main_v26 (ix3 b t d)))) = ix2 d (2 : Fin 3) :=
  funext fun a => Fin.ext (by
    match a with
    | ⟨0, _⟩ => exact Nat.div_one _
    | ⟨1, _⟩ => rfl)

/-- The oldest tap's weight for channel `d`, at every batch and row. -/
theorem v13_at (x3 : X3) (b : Fin 16) (t : Fin 2048) (d : Fin 1024) :
    val_main_v13 (F := Ideal) x3 (ix3 b t d) = x3 (ix2 d (0 : Fin 3)) := by
  rw [val_main_v13_apply, val_main_v12_apply, val_main_v10_apply, val_main_v9_apply, idx_tap0_at]

/-- The middle tap's weight for channel `d`, at every batch and row. -/
theorem v19_at (x3 : X3) (b : Fin 16) (t : Fin 2048) (d : Fin 1024) :
    val_main_v19 (F := Ideal) x3 (ix3 b t d) = x3 (ix2 d (1 : Fin 3)) := by
  rw [val_main_v19_apply, val_main_v18_apply, val_main_v16_apply, val_main_v15_apply, idx_tap1_at]

/-- The newest tap's weight for channel `d`, at every batch and row. -/
theorem v26_at (x3 : X3) (b : Fin 16) (t : Fin 2048) (d : Fin 1024) :
    val_main_v26 (F := Ideal) x3 (ix3 b t d) = x3 (ix2 d (2 : Fin 3)) := by
  rw [val_main_v26_apply, val_main_v25_apply, val_main_v23_apply, val_main_v22_apply, idx_tap2_at]

/-! ## The convolution, the gating and the output projection -/

/-- The three weighted shifted reads, summed oldest tap first, are the convolution. -/
theorem v28_at (x0 : X0) (x1 : X1) (x2 : X2) (x3 : X3) (b : Fin 16) (t : Fin 2048) (d : Fin 1024) :
    val_main_v28 (F := Ideal) x0 x1 x2 x3 (ix3 b t d) = Cert.ConvSpec.conv x0 x1 x2 x3 b t d := by
  rw [val_main_v28_apply, val_main_v21_apply, val_main_v14_apply, val_main_v20_apply, val_main_v27_apply,
    v13_at, v19_at, v26_at, v11_at, v17_at, v24_at]
  rfl

/-- The middle third times the convolution. -/
theorem v29_at (x0 : X0) (x1 : X1) (x2 : X2) (x3 : X3) (b : Fin 16) (t : Fin 2048) (d : Fin 1024) :
    val_main_v29 (F := Ideal) x0 x1 x2 x3 (ix3 b t d)
      = Cert.ConvSpec.pass x0 x1 x2 b t d * Cert.ConvSpec.conv x0 x1 x2 x3 b t d := by
  rw [val_main_v29_apply, v5_at, v28_at]
  rfl

theorem lidx_v30_at (b : Fin 16) (t : Fin 2048) (e : Fin 1024) (k : Fin 1024) :
    lidx_main_v30 (ix3 b t e) k = ix3 b t k :=
  funext fun a => by match a with | ⟨0, _⟩ => rfl | ⟨1, _⟩ => rfl | ⟨2, _⟩ => rfl

theorem ridx_v30_at (b : Fin 16) (t : Fin 2048) (e : Fin 1024) (k : Fin 1024) :
    ridx_main_v30 (ix3 b t e) k = ix2 e k :=
  funext fun a => by match a with | ⟨0, _⟩ => rfl | ⟨1, _⟩ => rfl

theorem idx_v31_v32_at (b : Fin 16) (t : Fin 2048) (e : Fin 1024) :
    idx_main_v31 (idx_main_v32 (ix3 b t e)) = ix1 e :=
  funext fun a => by match a with | ⟨0, _⟩ => rfl

/-- The second dot product plus the broadcast bias is the specification's result at `(b, t, e)`. -/
theorem v33_at (x0 : X0) (x1 : X1) (x2 : X2) (x3 : X3) (x4 : X4) (x5 : X5) (b : Fin 16) (t : Fin 2048) (e : Fin 1024) :
    val_main_v33 (F := Ideal) x0 x1 x2 x3 x4 x5 (ix3 b t e) = Cert.ConvSpec.out x0 x1 x2 x3 x4 x5 b t e := by
  rw [val_main_v33_apply, val_main_v30_apply, val_main_v32_apply, val_main_v31_apply]
  simp only [lidx_v30_at, ridx_v30_at, idx_v31_v32_at, v29_at]
  rfl

/-- The reference program's result is the specification's array. -/
theorem ref_eq (x0 : (⟨S16x2048x1024, .f32⟩ : BufTy).Contents (Elt Ideal)) (x1 : (⟨S3072x1024, .f32⟩ : BufTy).Contents (Elt Ideal)) (x2 : (⟨S3072, .f32⟩ : BufTy).Contents (Elt Ideal)) (x3 : (⟨S1024x3, .f32⟩ : BufTy).Contents (Elt Ideal)) (x4 : (⟨S1024x1024, .f32⟩ : BufTy).Contents (Elt Ideal)) (x5 : (⟨S1024, .f32⟩ : BufTy).Contents (Elt Ideal)) :
    Cert.ReferenceIdeal.Read.val_main_v33 (F := Ideal) x0 x1 x2 x3 x4 x5 = Cert.ConvSpec.G x0 x1 x2 x3 x4 x5 := by
  funext i
  obtain ⟨b, t, e, rfl⟩ : ∃ (b : Fin 16) (t : Fin 2048) (e : Fin 1024), i = ix3 b t e := ⟨i 0, i 1, i 2, eq_ix3 i⟩
  exact (v33_at x0 x1 x2 x3 x4 x5 b t e).trans (Cert.ConvSpec.G_apply x0 x1 x2 x3 x4 x5 b t e).symm

end Cert.ReferenceIdeal.RefValue

end
-- ==== Proof.lean ====
/-
  A gated causal depthwise convolution on a TPU against its plain reference, over the extended reals.

  Both programs compute, for x : [16, 2048, 1024] and the five parameter arrays,
    proj = x · Winᵀ + bin   (3072 channels),  g = proj[0:1024] · proj[2048:3072],  p = proj[1024:2048],
    conv t = (wconv₀ · g (t − 2) + wconv₁ · g (t − 1)) + wconv₂ · g t   with g = 0 before a batch's first row,
    result = (p · conv) · Woutᵀ + bout.
  The reference pads g with two zero rows in front and adds three shifted slices; the kernel walks each batch in
  eight blocks of 256 rows, rotates its block of g by one and by two rows and patches the first rows with the
  last rows of the previous block, which it carries in a scratch that it zeroes at a batch's first block. Both
  dot products are finite sums of the same products in the same factor order, every other operation is
  pointwise and written in the same order on both sides, and changing the float format is the identity on the
  extended reals: the two results are the same function of the arguments, index by index, with no law of
  arithmetic needed beyond reindexing a finite sum — in particular the finiteness of the inputs is not used.

  The three frames: the kernel's two are the generated frame certificates; the reference's is its generated run
  with the result dropped. The idealization rewrote nothing, so there is nothing to preserve.
-/
import proofs.«174520_j68470368633596_2_alg».proof.Defs
import proofs.«174520_j68470368633596_2_alg».proof.Proof.Gen.Kernel
import proofs.«174520_j68470368633596_2_alg».proof.Proof.Gen.Kernel.Frame
import proofs.«174520_j68470368633596_2_alg».proof.Proof.Gen.KernelIdeal
import proofs.«174520_j68470368633596_2_alg».proof.Proof.Gen.KernelIdeal.Frame
import proofs.«174520_j68470368633596_2_alg».proof.Proof.Gen.KernelIdeal.Value
import proofs.«174520_j68470368633596_2_alg».proof.Proof.Gen.ReferenceIdeal
import proofs.«174520_j68470368633596_2_alg».proof.Proof.Gen.ReferenceIdeal.Run
import proofs.«174520_j68470368633596_2_alg».proof.Proof.Gen.ReferenceIdeal.Read
import proofs.«174520_j68470368633596_2_alg».proof.Proof.Gen.Pre_finite_inputs
import proofs.«174520_j68470368633596_2_alg».proof.Proof.ConvValue
import proofs.«174520_j68470368633596_2_alg».proof.Proof.RefIsSpec
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the extended reals the kernel's result array ends at the specification of its arguments, and the
    reference's at the same specification of arguments that agree. -/
theorem algebraic : Cert.algebraic_KernelIdeal_ReferenceIdeal := by
  intro m ρ m' ρ' _ hagree
  refine ⟨fun c => Cert.KernelIdeal.ConvValue.Gk m c, Cert.KernelIdeal.ConvValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefValue.ref_eq, (hagree c).1, (hagree c).2.1,
    (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
